-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S2048 : Shape := ⟨1, ![2048]⟩
abbrev S1024x1024 : Shape := ⟨2, ![1024, 1024]⟩
abbrev S1024x16 : Shape := ⟨2, ![1024, 16]⟩
abbrev S1024 : Shape := ⟨1, ![1024]⟩
abbrev S16x1024 : Shape := ⟨2, ![16, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x16 : S_.BroadcastsInDim S1024x16 (![] : Fin 0 → Fin S1024x16.rank)
  reducesTo_S1024x16_S_d0_1 : S1024x16.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg9 : FVec F S1024x1024 .f32) (main_arg10 : FVec F S1024 .f32) (main_arg11 : FVec F S1024 .f32) (main_arg12 : FVec F S1024 .f32) (main_v33 : IVec S_ 1) : IVec S_ 1 :=
  let main_v34 : FVec F S1024x1024 .f32 := Host.absf main_arg9
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg10
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg11
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg6 : FVec F S1024x1024 .f32) (main_arg7 : FVec F S1024 .f32) (main_arg8 : FVec F S16x1024 .f32) (main_arg9 : FVec F S1024x1024 .f32) (main_arg10 : FVec F S1024 .f32) (main_arg11 : FVec F S1024 .f32) (main_arg12 : FVec F S1024 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S1024x1024 .f32 := Host.absf main_arg6
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S16x1024 .f32 := Host.absf main_arg8
  let main_cst_10 : FVec F S_ .f32 := constant S_ .f32 0x7F800000#32
  let main_v30 : FVec F S16x1024 .f32 := broadcastInDim S16x1024 ![] bcast_S_S16x1024 main_cst_10
  let main_v31 : IVec S16x1024 1 := cmpf .olt main_v29 main_v30
  let main_c_11 : IVec S_ 1 := constantI S_ 1 1#1
  let main_v32 : IVec S_ 1 := (fun x v => Host.reduce IntOp.andi x v reducesTo_S16x1024_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S512x1024 .f32) (main_arg1 : IVec S2048 32) (main_arg2 : IVec S2048 32) (main_arg3 : FVec F S1024x1024 .f32) (main_arg4 : FVec F S1024x1024 .f32) (main_arg5 : FVec F S1024x16 .f32) (main_arg6 : FVec F S1024x1024 .f32) (main_arg7 : FVec F S1024 .f32) (main_arg8 : FVec F S16x1024 .f32) (main_arg9 : FVec F S1024x1024 .f32) (main_arg10 : FVec F S1024 .f32) (main_arg11 : FVec F S1024 .f32) (main_arg12 : FVec F S1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x1024 .f32 := Host.absf main_arg3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x16 .f32 := Host.absf main_arg5
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg6 main_arg7 main_arg8 main_arg9 main_arg10 main_arg11 main_arg12 main_v13 main_v16
-- ==== Kernel.lean ====
abbrev S512x1024 : Shape := ⟨2, ![512, 1024]⟩
abbrev S2048 : Shape := ⟨1, ![2048]⟩
abbrev S1024x1024 : Shape := ⟨2, ![1024, 1024]⟩
abbrev S1024x16 : Shape := ⟨2, ![1024, 16]⟩
abbrev S1024 : Shape := ⟨1, ![1024]⟩
abbrev S16x1024 : Shape := ⟨2, ![16, 1024]⟩
abbrev S_ : Shape := ⟨0, ![]⟩
abbrev S2048x1 : Shape := ⟨2, ![2048, 1]⟩
abbrev S2048x1024 : Shape := ⟨2, ![2048, 1024]⟩
abbrev S2048x16 : Shape := ⟨2, ![2048, 16]⟩
abbrev S16x2048 : Shape := ⟨2, ![16, 2048]⟩
abbrev S1x1024 : Shape := ⟨2, ![1, 1024]⟩
abbrev S2048x16x64 : Shape := ⟨3, ![2048, 16, 64]⟩
abbrev S16x2048x64 : Shape := ⟨3, ![16, 2048, 64]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S1x2048x64 : Shape := ⟨3, ![1, 2048, 64]⟩
abbrev S2048x64 : Shape := ⟨2, ![2048, 64]⟩
abbrev S512x64 : Shape := ⟨2, ![512, 64]⟩

abbrev nBuf : Space → Nat
  | .hbm => 143
  | .vmem => 8
  | .smem => 0
  | _ => 0

abbrev hbmTy0_0 (i : Nat) : BufTy := match i % 128 with
  | 0 => ⟨S512x1024, .f32⟩
  | 1 => ⟨S2048, .i32⟩
  | 2 => ⟨S2048, .i32⟩
  | 3 => ⟨S1024x1024, .f32⟩
  | 4 => ⟨S1024x1024, .f32⟩
  | 5 => ⟨S1024x16, .f32⟩
  | 6 => ⟨S1024x1024, .f32⟩
  | 7 => ⟨S1024, .f32⟩
  | 8 => ⟨S16x1024, .f32⟩
  | 9 => ⟨S1024x1024, .f32⟩
  | 10 => ⟨S1024, .f32⟩
  | 11 => ⟨S1024, .f32⟩
  | 12 => ⟨S1024, .f32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S2048, .i32⟩
  | 20 => ⟨S2048, .i32⟩
  | 21 => ⟨S_, .i32⟩
  | 22 => ⟨S2048, .i32⟩
  | 23 => ⟨S2048, .i1⟩
  | 24 => ⟨S_, .i32⟩
  | 25 => ⟨S2048, .i32⟩
  | 26 => ⟨S2048, .i1⟩
  | 27 => ⟨S_, .i32⟩
  | 28 => ⟨S_, .i1⟩
  | 29 => ⟨S2048, .i1⟩
  | 30 => ⟨S2048, .i1⟩
  | 31 => ⟨S2048, .i1⟩
  | 32 => ⟨S2048, .i32⟩
  | 33 => ⟨S2048, .i32⟩
  | 34 => ⟨S2048, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S2048, .i32⟩
  | 42 => ⟨S2048, .i32⟩
  | 43 => ⟨S_, .i32⟩
  | 44 => ⟨S2048, .i32⟩
  | 45 => ⟨S2048, .i1⟩
  | 46 => ⟨S_, .i32⟩
  | 47 => ⟨S2048, .i32⟩
  | 48 => ⟨S2048, .i1⟩
  | 49 => ⟨S_, .i32⟩
  | 50 => ⟨S_, .i1⟩
  | 51 => ⟨S2048, .i1⟩
  | 52 => ⟨S2048, .i1⟩
  | 53 => ⟨S2048, .i1⟩
  | 54 => ⟨S2048, .i32⟩
  | 55 => ⟨S2048, .i32⟩
  | 56 => ⟨S2048, .i32⟩
  | 57 => ⟨S_, .i32⟩
  | 58 => ⟨S2048, .i32⟩
  | 59 => ⟨S2048, .i1⟩
  | 60 => ⟨S_, .i32⟩
  | 61 => ⟨S2048, .i32⟩
  | 62 => ⟨S2048, .i32⟩
  | 63 => ⟨S2048, .i32⟩
  | 64 => ⟨S2048x1, .i32⟩
  | 65 => ⟨S2048x1024, .f32⟩
  | 66 => ⟨S_, .i32⟩
  | 67 => ⟨S2048, .i32⟩
  | 68 => ⟨S2048, .i1⟩
  | 69 => ⟨S_, .i32⟩
  | 70 => ⟨S2048, .i32⟩
  | 71 => ⟨S2048, .i32⟩
  | 72 => ⟨S2048, .i32⟩
  | 73 => ⟨S2048x1, .i32⟩
  | 74 => ⟨S2048x1024, .f32⟩
  | 75 => ⟨S2048x1024, .f32⟩
  | 76 => ⟨S2048x1024, .f32⟩
  | 77 => ⟨S2048x16, .f32⟩
  | 78 => ⟨S16x2048, .f32⟩
  | 79 => ⟨S_, .f32⟩
  | 80 => ⟨S16x2048, .f32⟩
  | 81 => ⟨S16x2048, .f32⟩
  | 82 => ⟨S2048x1024, .f32⟩
  | 83 => ⟨S1x1024, .f32⟩
  | 84 => ⟨S2048x1024, .f32⟩
  | 85 => ⟨S2048x1024, .f32⟩
  | 86 => ⟨S2048x16x64, .f32⟩
  | 87 => ⟨S16x2048x64, .f32⟩
  | 88 => ⟨S_, .f32⟩
  | 89 => ⟨S16x1024, .f32⟩
  | 90 => ⟨S16x1024, .f32⟩
  | 91 => ⟨S2048x1024, .bf16⟩
  | 92 => ⟨S16x2048x64, .bf16⟩
  | 93 => ⟨S2048x1024, .f32⟩
  | 94 => ⟨S2048x1024, .f32⟩
  | 95 => ⟨S1x1024, .f32⟩
  | 96 => ⟨S2048x1024, .f32⟩
  | 97 => ⟨S2048x1024, .f32⟩
  | 98 => ⟨S2048x1024, .f32⟩
  | 99 => ⟨S_, .f32⟩
  | 100 => ⟨S2048, .f32⟩
  | 101 => ⟨S2048x1, .f32⟩
  | 102 => ⟨S_, .f32⟩
  | 103 => ⟨S2048x1, .f32⟩
  | 104 => ⟨S2048x1, .f32⟩
  | 105 => ⟨S_, .i32⟩
  | 106 => ⟨S_, .f32⟩
  | 107 => ⟨S2048, .f32⟩
  | 108 => ⟨S2048x1, .f32⟩
  | 109 => ⟨S_, .f32⟩
  | 110 => ⟨S2048x1, .f32⟩
  | 111 => ⟨S2048x1, .f32⟩
  | 112 => ⟨S2048x1024, .f32⟩
  | 113 => ⟨S2048x1024, .f32⟩
  | 114 => ⟨S2048x1024, .f32⟩
  | 115 => ⟨S_, .f32⟩
  | 116 => ⟨S_, .f32⟩
  | 117 => ⟨S_, .f32⟩
  | 118 => ⟨S_, .f32⟩
  | 119 => ⟨S2048, .f32⟩
  | 120 => ⟨S2048x1, .f32⟩
  | 121 => ⟨S2048x1, .f32⟩
  | 122 => ⟨S2048x1, .f32⟩
  | 123 => ⟨S_, .f32⟩
  | 124 => ⟨S_, .i1⟩
  | 125 => ⟨S_, .f32⟩
  | 126 => ⟨S_, .f32⟩
  | 127 => ⟨S2048x1, .f32⟩
  | _ => ⟨S512x1024, .f32⟩

abbrev hbmTy0_1 (i : Nat) : BufTy := match i % 128 with
  | 0 => ⟨S2048x1, .f32⟩
  | 1 => ⟨S2048x1024, .f32⟩
  | 2 => ⟨S2048x1024, .f32⟩
  | 3 => ⟨S_, .f32⟩
  | 4 => ⟨S2048x1, .f32⟩
  | 5 => ⟨S2048x1, .f32⟩
  | 6 => ⟨S2048x1, .f32⟩
  | 7 => ⟨S2048x1024, .f32⟩
  | 8 => ⟨S2048x1024, .f32⟩
  | 9 => ⟨S1x1024, .f32⟩
  | 10 => ⟨S2048x1024, .f32⟩
  | 11 => ⟨S2048x1024, .f32⟩
  | 12 => ⟨S1x1024, .f32⟩
  | 13 => ⟨S2048x1024, .f32⟩
  | 14 => ⟨S2048x1024, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S16x1024, .f32⟩
  | .local _ .vmem, ⟨4, _⟩ => ⟨S16x2048, .f32⟩
  | .local _ .vmem, ⟨5, _⟩ => ⟨S16x2048x64, .bf16⟩
  | .local _ .vmem, ⟨6, _⟩ => ⟨S512x1024, .f32⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v0 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v1 : Ref sig .tc := ⟨.hbm, 56, rfl⟩
abbrev main_c_1 : Ref sig .tc := ⟨.hbm, 57, rfl⟩
abbrev main_v2 : Ref sig .tc := ⟨.hbm, 58, rfl⟩
abbrev main_v3 : Ref sig .tc := ⟨.hbm, 59, rfl⟩
abbrev main_c_2 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_c_3 : Ref sig .tc := ⟨.hbm, 66, rfl⟩
abbrev main_v9 : Ref sig .tc := ⟨.hbm, 67, rfl⟩
abbrev main_v10 : Ref sig .tc := ⟨.hbm, 68, rfl⟩
abbrev main_c_4 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_cst : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_cst_5 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_cst_6 : Ref sig .tc := ⟨.hbm, 99, rfl⟩
abbrev main_v38 : Ref sig .tc := ⟨.hbm, 100, rfl⟩
abbrev main_v39 : Ref sig .tc := ⟨.hbm, 101, rfl⟩
abbrev main_cst_7 : Ref sig .tc := ⟨.hbm, 102, rfl⟩
abbrev main_v40 : Ref sig .tc := ⟨.hbm, 103, rfl⟩
abbrev main_v41 : Ref sig .tc := ⟨.hbm, 104, rfl⟩
abbrev main_c_8 : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_cst_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_cst_1 : Ref sig .tc := ⟨.hbm, 116, rfl⟩
abbrev main_call2_v8 : Ref sig .tc := ⟨.hbm, 117, rfl⟩
abbrev main_call2_cst_2 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_v12 : Ref sig .tc := ⟨.hbm, 122, rfl⟩
abbrev main_call2_cst_3 : Ref sig .tc := ⟨.hbm, 123, rfl⟩
abbrev main_call2_v13 : Ref sig .tc := ⟨.hbm, 124, rfl⟩
abbrev main_call2_cst_4 : Ref sig .tc := ⟨.hbm, 125, rfl⟩
abbrev main_call2_call0_v0 : Ref sig .tc := ⟨.hbm, 126, rfl⟩
abbrev main_call2_call0_v1 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_cst_9 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2048x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  transposes_S2048x16_S16x2048_1_0 : S2048x16.Transposes [1, 0] S16x2048
  bcast_S_S16x2048 : S_.BroadcastsInDim S16x2048 (![] : Fin 0 → Fin S16x2048.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  shapeCasts_S2048x1024_S2048x16x64 : S2048x1024.ShapeCasts S2048x16x64
  transposes_S2048x16x64_S16x2048x64_1_0_2 : S2048x16x64.Transposes [1, 0, 2] S16x2048x64
  bcast_S_S16x1024 : S_.BroadcastsInDim S16x1024 (![] : Fin 0 → Fin S16x1024.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S16x1024_S1x1024_0_0 : ∀ a, (![0, 0] : Fin 2 → Nat) a + S1x1024.size a ≤ S16x1024.size a
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  inb_S16x2048_S1x2048_0_0 : ∀ a, (![0, 0] : Fin 2 → Nat) a + S1x2048.size a ≤ S16x2048.size a
  h_S1x2048 : 0 < S1x2048.numel
  shapeCasts_S1x2048_S2048 : S1x2048.ShapeCasts S2048
  shapeCasts_S2048_S1x2048 : S2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S16x2048x64_S1x2048x64_0_0_0 : ∀ a, (![0, 0, 0] : Fin 3 → Nat) a + S1x2048x64.size a ≤ S16x2048x64.size a
  h_S1x2048x64 : 0 < S1x2048x64.numel
  shapeCasts_S1x2048x64_S2048x64 : S1x2048x64.ShapeCasts S2048x64
  inb_S16x1024_S1x1024_1_0 : ∀ a, (![1, 0] : Fin 2 → Nat) a + S1x1024.size a ≤ S16x1024.size a
  inb_S16x2048_S1x2048_1_0 : ∀ a, (![1, 0] : Fin 2 → Nat) a + S1x2048.size a ≤ S16x2048.size a
  inb_S16x2048x64_S1x2048x64_1_0_0 : ∀ a, (![1, 0, 0] : Fin 3 → Nat) a + S1x2048x64.size a ≤ S16x2048x64.size a
  inb_S16x1024_S1x1024_2_0 : ∀ a, (![2, 0] : Fin 2 → Nat) a + S1x1024.size a ≤ S16x1024.size a
  inb_S16x2048_S1x2048_2_0 : ∀ a, (![2, 0] : Fin 2 → Nat) a + S1x2048.size a ≤ S16x2048.size a
  inb_S16x2048x64_S1x2048x64_2_0_0 : ∀ a, (![2, 0, 0] : Fin 3 → Nat) a + S1x2048x64.size a ≤ S16x2048x64.size a
  inb_S16x1024_S1x1024_3_0 : ∀ a, (![3, 0] : Fin 2 → Nat) a + S1x1024.size a ≤ S16x1024.size a
  inb_S16x2048_S1x2048_3_0 : ∀ a, (![3, 0] : Fin 2 → Nat) a + S1x2048.size a ≤ S16x2048.size a
  inb_S16x2048x64_S1x2048x64_3_0_0 : ∀ a, (![3, 0, 0] : Fin 3 → Nat) a + S1x2048x64.size a ≤ S16x2048x64.size a
  inb_S16x1024_S1x1024_4_0 : ∀ a, (![4, 0] : Fin 2 → Nat) a + S1x1024.size a ≤ S16x1024.size a
  inb_S16x2048_S1x2048_4_0 : ∀ a, (![4, 0] : Fin 2 → Nat) a + S1x2048.size a ≤ S16x2048.size a
  inb_S16x2048x64_S1x2048x64_4_0_0 : ∀ a, (![4, 0, 0] : Fin 3 → Nat) a + S1x2048x64.size a ≤ S16x2048x64.size a
  inb_S16x1024_S1x1024_5_0 : ∀ a, (![5, 0] : Fin 2 → Nat) a + S1x1024.size a ≤ S16x1024.size a
  inb_S16x2048_S1x2048_5_0 : ∀ a, (![5, 0] : Fin 2 → Nat) a + S1x2048.size a ≤ S16x2048.size a
  inb_S16x2048x64_S1x2048x64_5_0_0 : ∀ a, (![5, 0, 0] : Fin 3 → Nat) a + S1x2048x64.size a ≤ S16x2048x64.size a
  inb_S16x1024_S1x1024_6_0 : ∀ a, (![6, 0] : Fin 2 → Nat) a + S1x1024.size a ≤ S16x1024.size a
  inb_S16x2048_S1x2048_6_0 : ∀ a, (![6, 0] : Fin 2 → Nat) a + S1x2048.size a ≤ S16x2048.size a
  inb_S16x2048x64_S1x2048x64_6_0_0 : ∀ a, (![6, 0, 0] : Fin 3 → Nat) a + S1x2048x64.size a ≤ S16x2048x64.size a
  inb_S16x1024_S1x1024_7_0 : ∀ a, (![7, 0] : Fin 2 → Nat) a + S1x1024.size a ≤ S16x1024.size a
  inb_S16x2048_S1x2048_7_0 : ∀ a, (![7, 0] : Fin 2 → Nat) a + S1x2048.size a ≤ S16x2048.size a
  inb_S16x2048x64_S1x2048x64_7_0_0 : ∀ a, (![7, 0, 0] : Fin 3 → Nat) a + S1x2048x64.size a ≤ S16x2048x64.size a
  inb_S16x1024_S1x1024_8_0 : ∀ a, (![8, 0] : Fin 2 → Nat) a + S1x1024.size a ≤ S16x1024.size a
  inb_S16x2048_S1x2048_8_0 : ∀ a, (![8, 0] : Fin 2 → Nat) a + S1x2048.size a ≤ S16x2048.size a
  inb_S16x2048x64_S1x2048x64_8_0_0 : ∀ a, (![8, 0, 0] : Fin 3 → Nat) a + S1x2048x64.size a ≤ S16x2048x64.size a
  inb_S16x1024_S1x1024_9_0 : ∀ a, (![9, 0] : Fin 2 → Nat) a + S1x1024.size a ≤ S16x1024.size a
  inb_S16x2048_S1x2048_9_0 : ∀ a, (![9, 0] : Fin 2 → Nat) a + S1x2048.size a ≤ S16x2048.size a
  inb_S16x2048x64_S1x2048x64_9_0_0 : ∀ a, (![9, 0, 0] : Fin 3 → Nat) a + S1x2048x64.size a ≤ S16x2048x64.size a
  inb_S16x1024_S1x1024_10_0 : ∀ a, (![10, 0] : Fin 2 → Nat) a + S1x1024.size a ≤ S16x1024.size a
  inb_S16x2048_S1x2048_10_0 : ∀ a, (![10, 0] : Fin 2 → Nat) a + S1x2048.size a ≤ S16x2048.size a
  inb_S16x2048x64_S1x2048x64_10_0_0 : ∀ a, (![10, 0, 0] : Fin 3 → Nat) a + S1x2048x64.size a ≤ S16x2048x64.size a
  inb_S16x1024_S1x1024_11_0 : ∀ a, (![11, 0] : Fin 2 → Nat) a + S1x1024.size a ≤ S16x1024.size a
  inb_S16x2048_S1x2048_11_0 : ∀ a, (![11, 0] : Fin 2 → Nat) a + S1x2048.size a ≤ S16x2048.size a
  inb_S16x2048x64_S1x2048x64_11_0_0 : ∀ a, (![11, 0, 0] : Fin 3 → Nat) a + S1x2048x64.size a ≤ S16x2048x64.size a
  inb_S16x1024_S1x1024_12_0 : ∀ a, (![12, 0] : Fin 2 → Nat) a + S1x1024.size a ≤ S16x1024.size a
  inb_S16x2048_S1x2048_12_0 : ∀ a, (![12, 0] : Fin 2 → Nat) a + S1x2048.size a ≤ S16x2048.size a
  inb_S16x2048x64_S1x2048x64_12_0_0 : ∀ a, (![12, 0, 0] : Fin 3 → Nat) a + S1x2048x64.size a ≤ S16x2048x64.size a
  inb_S16x1024_S1x1024_13_0 : ∀ a, (![13, 0] : Fin 2 → Nat) a + S1x1024.size a ≤ S16x1024.size a
  inb_S16x2048_S1x2048_13_0 : ∀ a, (![13, 0] : Fin 2 → Nat) a + S1x2048.size a ≤ S16x2048.size a
  inb_S16x2048x64_S1x2048x64_13_0_0 : ∀ a, (![13, 0, 0] : Fin 3 → Nat) a + S1x2048x64.size a ≤ S16x2048x64.size a
  inb_S16x1024_S1x1024_14_0 : ∀ a, (![14, 0] : Fin 2 → Nat) a + S1x1024.size a ≤ S16x1024.size a
  inb_S16x2048_S1x2048_14_0 : ∀ a, (![14, 0] : Fin 2 → Nat) a + S1x2048.size a ≤ S16x2048.size a
  inb_S16x2048x64_S1x2048x64_14_0_0 : ∀ a, (![14, 0, 0] : Fin 3 → Nat) a + S1x2048x64.size a ≤ S16x2048x64.size a
  inb_S16x1024_S1x1024_15_0 : ∀ a, (![15, 0] : Fin 2 → Nat) a + S1x1024.size a ≤ S16x1024.size a
  inb_S16x2048_S1x2048_15_0 : ∀ a, (![15, 0] : Fin 2 → Nat) a + S1x2048.size a ≤ S16x2048.size a
  inb_S16x2048x64_S1x2048x64_15_0_0 : ∀ a, (![15, 0, 0] : Fin 3 → Nat) a + S1x2048x64.size a ≤ S16x2048x64.size a
  concatenates_S512x64_S512x64_S512x64_S512x64_S512x64_S512x64_S512x64_S512x64_S512x64_S512x64_S512x64_S512x64_S512x64_S512x64_S512x64_S512x64_S512x1024_d1 : Shape.Concatenates [S512x64, S512x64, S512x64, S512x64, S512x64, S512x64, S512x64, S512x64, S512x64, S512x64, S512x64, S512x64, S512x64, S512x64, S512x64, S512x64] S512x1024 1
  reducesTo_S2048x1024_S2048_d1 : S2048x1024.ReducesTo [1] S2048
  h_S_ : 0 < S_.numel
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  gather_S512x1024_S2048x1_S2048x1024_1_0_n_n_0_1_11024_wf : GatherDims.WF S512x1024 S2048x1 S2048x1024 [1] [0] [] [0] [] 1 ![1, 1024]
  dot_S2048x1024_S1024x1024_S2048x1024_1_0_0_1_n_n_wf : DotDims.WF S2048x1024 S1024x1024 S2048x1024 [1] [0] [0] [1] [] []
  dot_S2048x1024_S1024x16_S2048x16_1_0_0_1_n_n_wf : DotDims.WF S2048x1024 S1024x16 S2048x16 [1] [0] [0] [1] [] []
  dot_S512x1024_S2048x1024_S512x2048_1_1_0_0_n_n_wf : DotDims.WF S512x1024 S2048x1024 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x1024.size a
  hwx0_2 : ∀ i : grid0.Coords, EltTy.bits .f32 = 32 ∨ (Rect.block (s := S16x1024) S16x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x2048.size a
  hwx0_3 : ∀ i : grid0.Coords, EltTy.bits .f32 = 32 ∨ (Rect.block (s := S16x2048) S16x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x2048x64.size a ≤ S16x2048x64.size a
  hwx0_4 : ∀ i : grid0.Coords, EltTy.bits .bf16 = 32 ∨ (Rect.block (s := S16x2048x64) S16x2048x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S2048x1024.size a
  hwx0_5 : ∀ i : grid0.Coords, EltTy.bits .f32 = 32 ∨ (Rect.block (s := S2048x1024) S512x1024.size (cc0_transform_5 i) (hinb0_5 i)).WholeWords (EltTy.packing .f32)

variable [Facts₀]

def gather_S512x1024_S2048x1_S2048x1024_1_0_n_n_0_1_11024 : GatherDims S512x1024 S2048x1 S2048x1024 where
  offsetDims := [1]
  collapsedSliceDims := [0]
  operandBatchingDims := []
  startIndicesBatchingDims := []
  startIndexMap := [0]
  indexVectorDim := 1
  sliceSizes := ![1, 1024]
  wf := gather_S512x1024_S2048x1_S2048x1024_1_0_n_n_0_1_11024_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x16_S2048x16_1_0_0_1_n_n : DotDims S2048x1024 S1024x16 S2048x16 where
  lhsContracting := [1]
  rhsContracting := [0]
  lhsNonContracting := [0]
  rhsNonContracting := [1]
  lhsBatch := []
  rhsBatch := []
  wf := dot_S2048x1024_S1024x16_S2048x16_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v16) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S16x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S16x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S16x2048x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x1024 : Shape := ⟨2, ![512, 1024]⟩
abbrev S2048 : Shape := ⟨1, ![2048]⟩
abbrev S1024x1024 : Shape := ⟨2, ![1024, 1024]⟩
abbrev S1024x16 : Shape := ⟨2, ![1024, 16]⟩
abbrev S1024 : Shape := ⟨1, ![1024]⟩
abbrev S16x1024 : Shape := ⟨2, ![16, 1024]⟩
abbrev S_ : Shape := ⟨0, ![]⟩
abbrev S2048x1 : Shape := ⟨2, ![2048, 1]⟩
abbrev S2048x1024 : Shape := ⟨2, ![2048, 1024]⟩
abbrev S1x2048x1024 : Shape := ⟨3, ![1, 2048, 1024]⟩
abbrev S16x1x1024 : Shape := ⟨3, ![16, 1, 1024]⟩
abbrev S16x2048x1024 : Shape := ⟨3, ![16, 2048, 1024]⟩
abbrev S16x2048x2048 : Shape := ⟨3, ![16, 2048, 2048]⟩
abbrev S2048x16 : Shape := ⟨2, ![2048, 16]⟩
abbrev S16x2048 : Shape := ⟨2, ![16, 2048]⟩
abbrev S16x1x2048 : Shape := ⟨3, ![16, 1, 2048]⟩
abbrev S16x2048x1 : Shape := ⟨3, ![16, 2048, 1]⟩
abbrev S1x1024 : Shape := ⟨2, ![1, 1024]⟩
abbrev S2048x16x64 : Shape := ⟨3, ![2048, 16, 64]⟩
abbrev S16x2048x64 : Shape := ⟨3, ![16, 2048, 64]⟩

abbrev nBuf : Space → Nat
  | .hbm => 163
  | .vmem => 0
  | .smem => 0
  | _ => 0

abbrev hbmTy0_0 (i : Nat) : BufTy := match i % 128 with
  | 0 => ⟨S512x1024, .f32⟩
  | 1 => ⟨S2048, .i32⟩
  | 2 => ⟨S2048, .i32⟩
  | 3 => ⟨S1024x1024, .f32⟩
  | 4 => ⟨S1024x1024, .f32⟩
  | 5 => ⟨S1024x16, .f32⟩
  | 6 => ⟨S1024x1024, .f32⟩
  | 7 => ⟨S1024, .f32⟩
  | 8 => ⟨S16x1024, .f32⟩
  | 9 => ⟨S1024x1024, .f32⟩
  | 10 => ⟨S1024, .f32⟩
  | 11 => ⟨S1024, .f32⟩
  | 12 => ⟨S1024, .f32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S2048, .i32⟩
  | 20 => ⟨S2048, .i32⟩
  | 21 => ⟨S_, .i32⟩
  | 22 => ⟨S2048, .i32⟩
  | 23 => ⟨S2048, .i1⟩
  | 24 => ⟨S_, .i32⟩
  | 25 => ⟨S2048, .i32⟩
  | 26 => ⟨S2048, .i1⟩
  | 27 => ⟨S_, .i32⟩
  | 28 => ⟨S_, .i1⟩
  | 29 => ⟨S2048, .i1⟩
  | 30 => ⟨S2048, .i1⟩
  | 31 => ⟨S2048, .i1⟩
  | 32 => ⟨S2048, .i32⟩
  | 33 => ⟨S2048, .i32⟩
  | 34 => ⟨S2048, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S2048, .i32⟩
  | 42 => ⟨S2048, .i32⟩
  | 43 => ⟨S_, .i32⟩
  | 44 => ⟨S2048, .i32⟩
  | 45 => ⟨S2048, .i1⟩
  | 46 => ⟨S_, .i32⟩
  | 47 => ⟨S2048, .i32⟩
  | 48 => ⟨S2048, .i1⟩
  | 49 => ⟨S_, .i32⟩
  | 50 => ⟨S_, .i1⟩
  | 51 => ⟨S2048, .i1⟩
  | 52 => ⟨S2048, .i1⟩
  | 53 => ⟨S2048, .i1⟩
  | 54 => ⟨S2048, .i32⟩
  | 55 => ⟨S2048, .i32⟩
  | 56 => ⟨S2048, .i32⟩
  | 57 => ⟨S_, .i32⟩
  | 58 => ⟨S2048, .i32⟩
  | 59 => ⟨S2048, .i1⟩
  | 60 => ⟨S_, .i32⟩
  | 61 => ⟨S2048, .i32⟩
  | 62 => ⟨S2048, .i32⟩
  | 63 => ⟨S2048, .i32⟩
  | 64 => ⟨S2048x1, .i32⟩
  | 65 => ⟨S2048x1024, .f32⟩
  | 66 => ⟨S_, .i32⟩
  | 67 => ⟨S2048, .i32⟩
  | 68 => ⟨S2048, .i1⟩
  | 69 => ⟨S_, .i32⟩
  | 70 => ⟨S2048, .i32⟩
  | 71 => ⟨S2048, .i32⟩
  | 72 => ⟨S2048, .i32⟩
  | 73 => ⟨S2048x1, .i32⟩
  | 74 => ⟨S2048x1024, .f32⟩
  | 75 => ⟨S2048x1024, .f32⟩
  | 76 => ⟨S2048x1024, .f32⟩
  | 77 => ⟨S1x2048x1024, .f32⟩
  | 78 => ⟨S16x1x1024, .f32⟩
  | 79 => ⟨S16x2048x1024, .f32⟩
  | 80 => ⟨S16x2048x1024, .f32⟩
  | 81 => ⟨S16x2048x1024, .f32⟩
  | 82 => ⟨S16x2048x2048, .f32⟩
  | 83 => ⟨S2048x16, .f32⟩
  | 84 => ⟨S16x2048, .f32⟩
  | 85 => ⟨S16x1x2048, .f32⟩
  | 86 => ⟨S16x2048x2048, .f32⟩
  | 87 => ⟨S16x2048x2048, .f32⟩
  | 88 => ⟨S_, .f32⟩
  | 89 => ⟨S16x2048x2048, .f32⟩
  | 90 => ⟨S16x2048x2048, .f32⟩
  | 91 => ⟨S_, .f32⟩
  | 92 => ⟨S16x2048, .f32⟩
  | 93 => ⟨S_, .f32⟩
  | 94 => ⟨S16x2048, .f32⟩
  | 95 => ⟨S16x2048, .f32⟩
  | 96 => ⟨S16x2048x1, .f32⟩
  | 97 => ⟨S16x2048x2048, .f32⟩
  | 98 => ⟨S16x2048x2048, .f32⟩
  | 99 => ⟨S16x2048x2048, .f32⟩
  | 100 => ⟨S_, .f32⟩
  | 101 => ⟨S16x2048, .f32⟩
  | 102 => ⟨S16x2048x1, .f32⟩
  | 103 => ⟨S16x2048x2048, .f32⟩
  | 104 => ⟨S16x2048x2048, .f32⟩
  | 105 => ⟨S2048x1024, .f32⟩
  | 106 => ⟨S1x1024, .f32⟩
  | 107 => ⟨S2048x1024, .f32⟩
  | 108 => ⟨S2048x1024, .f32⟩
  | 109 => ⟨S2048x16x64, .f32⟩
  | 110 => ⟨S16x2048x64, .f32⟩
  | 111 => ⟨S16x2048x64, .f32⟩
  | 112 => ⟨S2048x16x64, .f32⟩
  | 113 => ⟨S2048x1024, .f32⟩
  | 114 => ⟨S2048x1024, .f32⟩
  | 115 => ⟨S1x1024, .f32⟩
  | 116 => ⟨S2048x1024, .f32⟩
  | 117 => ⟨S2048x1024, .f32⟩
  | 118 => ⟨S2048x1024, .f32⟩
  | 119 => ⟨S_, .f32⟩
  | 120 => ⟨S2048, .f32⟩
  | 121 => ⟨S2048x1, .f32⟩
  | 122 => ⟨S_, .f32⟩
  | 123 => ⟨S2048x1, .f32⟩
  | 124 => ⟨S2048x1, .f32⟩
  | 125 => ⟨S_, .i32⟩
  | 126 => ⟨S_, .f32⟩
  | 127 => ⟨S2048, .f32⟩
  | _ => ⟨S512x1024, .f32⟩

abbrev hbmTy0_1 (i : Nat) : BufTy := match i % 128 with
  | 0 => ⟨S2048x1, .f32⟩
  | 1 => ⟨S_, .f32⟩
  | 2 => ⟨S2048x1, .f32⟩
  | 3 => ⟨S2048x1, .f32⟩
  | 4 => ⟨S2048x1024, .f32⟩
  | 5 => ⟨S2048x1024, .f32⟩
  | 6 => ⟨S2048x1024, .f32⟩
  | 7 => ⟨S_, .f32⟩
  | 8 => ⟨S_, .f32⟩
  | 9 => ⟨S_, .f32⟩
  | 10 => ⟨S_, .f32⟩
  | 11 => ⟨S2048, .f32⟩
  | 12 => ⟨S2048x1, .f32⟩
  | 13 => ⟨S2048x1, .f32⟩
  | 14 => ⟨S2048x1, .f32⟩
  | 15 => ⟨S_, .f32⟩
  | 16 => ⟨S_, .i1⟩
  | 17 => ⟨S_, .f32⟩
  | 18 => ⟨S_, .f32⟩
  | 19 => ⟨S2048x1, .f32⟩
  | 20 => ⟨S2048x1, .f32⟩
  | 21 => ⟨S2048x1024, .f32⟩
  | 22 => ⟨S2048x1024, .f32⟩
  | 23 => ⟨S_, .f32⟩
  | 24 => ⟨S2048x1, .f32⟩
  | 25 => ⟨S2048x1, .f32⟩
  | 26 => ⟨S2048x1, .f32⟩
  | 27 => ⟨S2048x1024, .f32⟩
  | 28 => ⟨S2048x1024, .f32⟩
  | 29 => ⟨S1x1024, .f32⟩
  | 30 => ⟨S2048x1024, .f32⟩
  | 31 => ⟨S2048x1024, .f32⟩
  | 32 => ⟨S1x1024, .f32⟩
  | 33 => ⟨S2048x1024, .f32⟩
  | 34 => ⟨S2048x1024, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v0 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v1 : Ref sig .tc := ⟨.hbm, 56, rfl⟩
abbrev main_c_1 : Ref sig .tc := ⟨.hbm, 57, rfl⟩
abbrev main_v2 : Ref sig .tc := ⟨.hbm, 58, rfl⟩
abbrev main_v3 : Ref sig .tc := ⟨.hbm, 59, rfl⟩
abbrev main_c_2 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_c_3 : Ref sig .tc := ⟨.hbm, 66, rfl⟩
abbrev main_v9 : Ref sig .tc := ⟨.hbm, 67, rfl⟩
abbrev main_v10 : Ref sig .tc := ⟨.hbm, 68, rfl⟩
abbrev main_c_4 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst : Ref sig .tc := ⟨.hbm, 88, rfl⟩
abbrev main_v29 : Ref sig .tc := ⟨.hbm, 89, rfl⟩
abbrev main_v30 : Ref sig .tc := ⟨.hbm, 90, rfl⟩
abbrev main_cst_5 : Ref sig .tc := ⟨.hbm, 91, rfl⟩
abbrev main_v31 : Ref sig .tc := ⟨.hbm, 92, rfl⟩
abbrev main_cst_6 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_cst_7 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_cst_8 : Ref sig .tc := ⟨.hbm, 119, rfl⟩
abbrev main_v56 : Ref sig .tc := ⟨.hbm, 120, rfl⟩
abbrev main_v57 : Ref sig .tc := ⟨.hbm, 121, rfl⟩
abbrev main_cst_9 : Ref sig .tc := ⟨.hbm, 122, rfl⟩
abbrev main_v58 : Ref sig .tc := ⟨.hbm, 123, rfl⟩
abbrev main_v59 : Ref sig .tc := ⟨.hbm, 124, rfl⟩
abbrev main_c_10 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_cst_0 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_v6 : Ref sig .tc := ⟨.hbm, 134, rfl⟩
abbrev main_call2_v7 : Ref sig .tc := ⟨.hbm, 135, rfl⟩
abbrev main_call2_cst_1 : Ref sig .tc := ⟨.hbm, 136, rfl⟩
abbrev main_call2_v8 : Ref sig .tc := ⟨.hbm, 137, rfl⟩
abbrev main_call2_cst_2 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_call2_v12 : Ref sig .tc := ⟨.hbm, 142, rfl⟩
abbrev main_call2_cst_3 : Ref sig .tc := ⟨.hbm, 143, rfl⟩
abbrev main_call2_v13 : Ref sig .tc := ⟨.hbm, 144, rfl⟩
abbrev main_call2_cst_4 : Ref sig .tc := ⟨.hbm, 145, rfl⟩
abbrev main_call2_call0_v0 : Ref sig .tc := ⟨.hbm, 146, rfl⟩
abbrev main_call2_call0_v1 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_cst_11 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x1024_S1x2048x1024_1_2 : S2048x1024.BroadcastsInDim S1x2048x1024 (![1, 2] : Fin 2 → Fin S1x2048x1024.rank)
  bcast_S16x1024_S16x1x1024_0_2 : S16x1024.BroadcastsInDim S16x1x1024 (![0, 2] : Fin 2 → Fin S16x1x1024.rank)
  bcast_S1x2048x1024_S16x2048x1024_0_1_2 : S1x2048x1024.BroadcastsInDim S16x2048x1024 (![0, 1, 2] : Fin 3 → Fin S16x2048x1024.rank)
  bcast_S16x1x1024_S16x2048x1024_0_1_2 : S16x1x1024.BroadcastsInDim S16x2048x1024 (![0, 1, 2] : Fin 3 → Fin S16x2048x1024.rank)
  transposes_S2048x16_S16x2048_1_0 : S2048x16.Transposes [1, 0] S16x2048
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  shapeCasts_S2048x1024_S2048x16x64 : S2048x1024.ShapeCasts S2048x16x64
  transposes_S2048x16x64_S16x2048x64_1_0_2 : S2048x16x64.Transposes [1, 0, 2] S16x2048x64
  transposes_S16x2048x64_S2048x16x64_1_0_2 : S16x2048x64.Transposes [1, 0, 2] S2048x16x64
  shapeCasts_S2048x16x64_S2048x1024 : S2048x16x64.ShapeCasts S2048x1024
  reducesTo_S2048x1024_S2048_d1 : S2048x1024.ReducesTo [1] S2048
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  gather_S512x1024_S2048x1_S2048x1024_1_0_n_n_0_1_11024_wf : GatherDims.WF S512x1024 S2048x1 S2048x1024 [1] [0] [] [0] [] 1 ![1, 1024]
  dot_S2048x1024_S1024x1024_S2048x1024_1_0_0_1_n_n_wf : DotDims.WF S2048x1024 S1024x1024 S2048x1024 [1] [0] [0] [1] [] []
  dot_S16x2048x1024_S2048x1024_S16x2048x2048_2_1_01_0_n_n_wf : DotDims.WF S16x2048x1024 S2048x1024 S16x2048x2048 [2] [1] [0, 1] [0] [] []
  dot_S2048x1024_S1024x16_S2048x16_1_0_0_1_n_n_wf : DotDims.WF S2048x1024 S1024x16 S2048x16 [1] [0] [0] [1] [] []
  dot_S16x2048x2048_S16x2048x64_S16x2048x64_2_1_1_2_0_0_wf : DotDims.WF S16x2048x2048 S16x2048x64 S16x2048x64 [2] [1] [1] [2] [0] [0]

variable [Facts₀]

def gather_S512x1024_S2048x1_S2048x1024_1_0_n_n_0_1_11024 : GatherDims S512x1024 S2048x1 S2048x1024 where
  offsetDims := [1]
  collapsedSliceDims := [0]
  operandBatchingDims := []
  startIndicesBatchingDims := []
  startIndexMap := [0]
  indexVectorDim := 1
  sliceSizes := ![1, 1024]
  wf := gather_S512x1024_S2048x1_S2048x1024_1_0_n_n_0_1_11024_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S16x2048x1024_S2048x1024_S16x2048x2048_2_1_01_0_n_n : DotDims S16x2048x1024 S2048x1024 S16x2048x2048 where
  lhsContracting := [2]
  rhsContracting := [1]
  lhsNonContracting := [0, 1]
  rhsNonContracting := [0]
  lhsBatch := []
  rhsBatch := []
  wf := dot_S16x2048x1024_S2048x1024_S16x2048x2048_2_1_01_0_n_n_wf
def dot_S2048x1024_S1024x16_S2048x16_1_0_0_1_n_n : DotDims S2048x1024 S1024x16 S2048x16 where
  lhsContracting := [1]
  rhsContracting := [0]
  lhsNonContracting := [0]
  rhsNonContracting := [1]
  lhsBatch := []
  rhsBatch := []
  wf := dot_S2048x1024_S1024x16_S2048x16_1_0_0_1_n_n_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Terms.lean ====
/-
  The stages of the attention layer, named.

  Both programs gather rows of the hidden states (row number: the position modulo 512, made non-negative), project
  them by the weight matrices, and end with the same output projection, residual and layer normalisation. Between
  the two they differ: one forms, for every head h, the scores (q·mixing_h) kᵀ + cb_h and scales them by 1/8 before
  the row softmax; the other scales mixing and cb by 1/8 beforehand. The stages common to both are named here once,
  as the host operations compose them, so that the comparison only ever opens the part in which they differ.
-/
import proofs.«128218_j79096117723503_2_alg».proof.Proof.Gen.ReferenceIdeal
import Idealize.ShloMosaic.PureOps.Ideal
import Idealize.ShloMosaic.PureOps.Ideal.Laws
import Idealize.ShloMosaic.Lib.ValueIdx

noncomputable section

namespace Cert.Attn

open Idealize.ShloMosaic Cert.ReferenceIdeal
open Cert.ReferenceIdeal.Facts₀

variable {F : FTy → Type} [FloatOps F]

/-- The contents of a float array of shape `s`. -/
abbrev Arr (F : FTy → Type) (s : Shape) : Type := (⟨s, .f32⟩ : BufTy).Contents (Elt F)
/-- The contents of a 32-bit integer array of shape `s`. -/
abbrev IArr (F : FTy → Type) (s : Shape) : Type := (⟨s, .i32⟩ : BufTy).Contents (Elt F)

/-- The row numbers a position vector selects: the position modulo 512 with the divisor's sign (a zero divisor is
    replaced by one), once more shifted by 512 where negative, as a column of indices. -/
def rowIdx (pos : IArr F S2048) : IArr F S2048x1 :=
  let c512 : IArr F S_ := constantI S_ 32 512#32
  let d0 : IArr F S_ := id c512
  let isz : (⟨S_, .i1⟩ : BufTy).Contents (Elt F) := cmpi .eq d0 (constantI S_ 32 0#32 : IArr F S_)
  let dv : IArr F S_ := select isz (constantI S_ 32 1#32 : IArr F S_) d0
  let v3 : IArr F S2048 := broadcastInDim S2048 ![] bcast_S_S2048 dv
  let v4 : IArr F S2048 := Host.remsi pos v3
  let v5 : IArr F S2048 := broadcastInDim S2048 ![] bcast_S_S2048 (constantI S_ 32 0#32 : IArr F S_)
  let v6 : (⟨S2048, .i1⟩ : BufTy).Contents (Elt F) := cmpi .ne v4 v5
  let v7 : IArr F S2048 := broadcastInDim S2048 ![] bcast_S_S2048 (constantI S_ 32 0#32 : IArr F S_)
  let v8 : (⟨S2048, .i1⟩ : BufTy).Contents (Elt F) := cmpi .slt v4 v7
  let v9 : (⟨S_, .i1⟩ : BufTy).Contents (Elt F) := cmpi .slt dv (constantI S_ 32 0#32 : IArr F S_)
  let v10 : (⟨S2048, .i1⟩ : BufTy).Contents (Elt F) := broadcastInDim S2048 ![] bcast_S_S2048 v9
  let v11 : (⟨S2048, .i1⟩ : BufTy).Contents (Elt F) := cmpi .ne v8 v10
  let v12 : (⟨S2048, .i1⟩ : BufTy).Contents (Elt F) := andi v11 v6
  let v13 : IArr F S2048 := broadcastInDim S2048 ![] bcast_S_S2048 dv
  let v14 : IArr F S2048 := addi v4 v13
  let r : IArr F S2048 := select v12 v14 v4
  let z : IArr F S2048 := broadcastInDim S2048 ![] bcast_S_S2048 (constantI S_ 32 0#32 : IArr F S_)
  let lt : (⟨S2048, .i1⟩ : BufTy).Contents (Elt F) := cmpi .slt r z
  let b512 : IArr F S2048 := broadcastInDim S2048 ![] bcast_S_S2048 (constantI S_ 32 512#32 : IArr F S_)
  let sel : IArr F S2048 := select lt (addi r b512) r
  broadcastInDim S2048x1 ![0] bcast_S2048_S2048x1_0 sel

/-- The rows of the hidden states at those row numbers. -/
def gatherRows (hs : Arr F S512x1024) (pos : IArr F S2048) : Arr F S2048x1024 :=
  Host.gather gather_S512x1024_S2048x1_S2048x1024_1_0_n_n_0_1_11024 hs (rowIdx pos)

/-- A projection by a square weight matrix. -/
def proj (x : Arr F S2048x1024) (w : Arr F S1024x1024) : Arr F S2048x1024 :=
  Host.dotGeneral dot_S2048x1024_S1024x1024_S2048x1024_1_0_0_1_n_n none x w

/-- The content-bias projection, one column per head. -/
def projCb (x : Arr F S2048x1024) (w : Arr F S1024x16) : Arr F S2048x16 :=
  Host.dotGeneral dot_S2048x1024_S1024x16_S2048x16_1_0_0_1_n_n none x w

/-- A bias vector added to every row. -/
def biasRows (b : Arr F S1024) : Arr F S2048x1024 :=
  broadcastInDim S2048x1024 ![0, 1] bcast_S1x1024_S2048x1024_0_1 (broadcastInDim S1x1024 ![1] bcast_S1024_S1x1024_1 b)

/-- The value projection, split into heads: [2048, 1024] → [2048, 16, 64] → [16, 2048, 64]. -/
def vHeads (tos : Arr F S2048x1024) (wv : Arr F S1024x1024) (bv : Arr F S1024) : Arr F S16x2048x64 :=
  transpose S16x2048x64 [1, 0, 2] (shapeCast S2048x16x64 (addf (proj tos wv) (biasRows bv)) shapeCasts_S2048x1024_S2048x16x64) transposes_S2048x16x64_S16x2048x64_1_0_2

/-- The reference's attention between the projections and the output projection: scores scaled after the bias is
    added, a row softmax, the weighted sum of the values, and the heads laid side by side. -/
def refMid (q k : Arr F S2048x1024) (mixing : Arr F S16x1024) (cbRaw : Arr F S2048x16) (vh : Arr F S16x2048x64) : Arr F S2048x1024 :=
  let v18 : Arr F S1x2048x1024 := broadcastInDim S1x2048x1024 ![1, 2] bcast_S2048x1024_S1x2048x1024_1_2 q
  let v19 : Arr F S16x1x1024 := broadcastInDim S16x1x1024 ![0, 2] bcast_S16x1024_S16x1x1024_0_2 mixing
  let v20 : Arr F S16x2048x1024 := broadcastInDim S16x2048x1024 ![0, 1, 2] bcast_S1x2048x1024_S16x2048x1024_0_1_2 v18
  let v21 : Arr F S16x2048x1024 := broadcastInDim S16x2048x1024 ![0, 1, 2] bcast_S16x1x1024_S16x2048x1024_0_1_2 v19
  let v22 : Arr F S16x2048x1024 := mulf v20 v21
  let v23 : Arr F S16x2048x2048 := Host.dotGeneral dot_S16x2048x1024_S2048x1024_S16x2048x2048_2_1_01_0_n_n none v22 k
  let v25 : Arr F S16x2048 := transpose S16x2048 [1, 0] cbRaw transposes_S2048x16_S16x2048_1_0
  let v26 : Arr F S16x1x2048 := broadcastInDim S16x1x2048 ![0, 2] bcast_S16x2048_S16x1x2048_0_2 v25
  let v27 : Arr F S16x2048x2048 := broadcastInDim S16x2048x2048 ![0, 1, 2] bcast_S16x1x2048_S16x2048x2048_0_1_2 v26
  let v28 : Arr F S16x2048x2048 := addf v23 v27
  let v29 : Arr F S16x2048x2048 := broadcastInDim S16x2048x2048 ![] bcast_S_S16x2048x2048 (constant (F := F) S_ .f32 0x3E000000#32)
  let v30 : Arr F S16x2048x2048 := mulf v28 v29
  let v31 : Arr F S16x2048 := Host.reduce FloatOps.maximumf v30 (constant (F := F) S_ .f32 0xFF800000#32) reducesTo_S16x2048x2048_S16x2048_d2 h_S_
  let v32 : Arr F S16x2048 := broadcastInDim S16x2048 ![] bcast_S_S16x2048 (constant (F := F) S_ .f32 0xFF800000#32)
  let v33 : Arr F S16x2048 := maximumf v32 v31
  let v34 : Arr F S16x2048x1 := broadcastInDim S16x2048x1 ![0, 1] bcast_S16x2048_S16x2048x1_0_1 v33
  let v35 : Arr F S16x2048x2048 := broadcastInDim S16x2048x2048 ![0, 1, 2] bcast_S16x2048x1_S16x2048x2048_0_1_2 v34
  let v36 : Arr F S16x2048x2048 := subf v30 v35
  let v37 : Arr F S16x2048x2048 := Host.exp v36
  let v38 : Arr F S16x2048 := Host.reduceAdd v37 (constant (F := F) S_ .f32 0x00000000#32) reducesTo_S16x2048x2048_S16x2048_d2 h_S_
  let v39 : Arr F S16x2048x1 := broadcastInDim S16x2048x1 ![0, 1] bcast_S16x2048_S16x2048x1_0_1 v38
  let v40 : Arr F S16x2048x2048 := broadcastInDim S16x2048x2048 ![0, 1, 2] bcast_S16x2048x1_S16x2048x2048_0_1_2 v39
  let v41 : Arr F S16x2048x2048 := Host.divf v37 v40
  let v48 : Arr F S16x2048x64 := Host.dotGeneral dot_S16x2048x2048_S16x2048x64_S16x2048x64_2_1_1_2_0_0 none v41 vh
  let v49 : Arr F S2048x16x64 := transpose S2048x16x64 [1, 0, 2] v48 transposes_S16x2048x64_S2048x16x64_1_0_2
  shapeCast S2048x1024 v49 shapeCasts_S2048x16x64_S2048x1024

/-- The output projection, the residual and the layer normalisation over each row (mean, variance about the mean
    divided by 1024 − 0, the square root of the variance plus 1e-5, then scale and shift). -/
def lnOut (from_ ctx : Arr F S2048x1024) (wd : Arr F S1024x1024) (bd gamma beta : Arr F S1024) : Arr F S2048x1024 :=
  let res : Arr F S2048x1024 := addf from_ (addf (proj ctx wd) (biasRows bd))
  let v56 : Arr F S2048 := Host.reduceAdd res (constant (F := F) S_ .f32 0x00000000#32) reducesTo_S2048x1024_S2048_d1 h_S_
  let v57 : Arr F S2048x1 := broadcastInDim S2048x1 ![0] bcast_S2048_S2048x1_0 v56
  let v58 : Arr F S2048x1 := broadcastInDim S2048x1 ![] bcast_S_S2048x1 (constant (F := F) S_ .f32 0x44800000#32)
  let v59 : Arr F S2048x1 := Host.divf v57 v58
  let w0 : Arr F S2048 := Host.reduceAdd res (constant (F := F) S_ .f32 0x00000000#32) reducesTo_S2048x1024_S2048_d1 h_S_
  let w1 : Arr F S2048x1 := broadcastInDim S2048x1 ![0] bcast_S2048_S2048x1_0 w0
  let w2 : Arr F S2048x1 := broadcastInDim S2048x1 ![] bcast_S_S2048x1 (constant (F := F) S_ .f32 0x44800000#32)
  let w3 : Arr F S2048x1 := Host.divf w1 w2
  let w4 : Arr F S2048x1024 := broadcastInDim S2048x1024 ![0, 1] bcast_S2048x1_S2048x1024_0_1 w3
  let w5 : Arr F S2048x1024 := subf res w4
  let w6 : Arr F S2048x1024 := mulf w5 w5
  let w7 : Arr F S_ := sitofp .f32 (constantI S_ 32 0#32 : IArr F S_)
  let w8 : Arr F S_ := subf (constant (F := F) S_ .f32 0x44800000#32) w7
  let w9 : Arr F S2048 := Host.reduceAdd w6 (constant (F := F) S_ .f32 0x00000000#32) reducesTo_S2048x1024_S2048_d1 h_S_
  let w10 : Arr F S2048x1 := broadcastInDim S2048x1 ![0] bcast_S2048_S2048x1_0 w9
  let w11 : Arr F S2048x1 := broadcastInDim S2048x1 ![] bcast_S_S2048x1 w8
  let w12 : Arr F S2048x1 := Host.divf w10 w11
  let w13 : (⟨S_, .i1⟩ : BufTy).Contents (Elt F) := cmpf .ogt w8 (constant (F := F) S_ .f32 0x00000000#32)
  let u0 : Arr F S_ := id (constant (F := F) S_ .f32 0x7FC00000#32)
  let u1 : Arr F S2048x1 := broadcastInDim S2048x1 ![] bcast_S_S2048x1 u0
  let v60 : Arr F S2048x1 := select (broadcastInDim S2048x1 ![] bcast_S_S2048x1 w13) w12 u1
  let v61 : Arr F S2048x1024 := broadcastInDim S2048x1024 ![0, 1] bcast_S2048x1_S2048x1024_0_1 v59
  let v62 : Arr F S2048x1024 := subf res v61
  let v63 : Arr F S2048x1 := broadcastInDim S2048x1 ![] bcast_S_S2048x1 (constant (F := F) S_ .f32 0x3727C5AC#32)
  let v64 : Arr F S2048x1 := addf v60 v63
  let v65 : Arr F S2048x1 := Host.sqrt v64
  let v66 : Arr F S2048x1024 := broadcastInDim S2048x1024 ![0, 1] bcast_S2048x1_S2048x1024_0_1 v65
  let v67 : Arr F S2048x1024 := Host.divf v62 v66
  addf (mulf v67 (biasRows gamma)) (biasRows beta)

/-- The reference's result as a function of its thirteen arguments. -/
def refOut (hs : Arr F S512x1024) (fpos tpos : IArr F S2048) (wq wk : Arr F S1024x1024) (wcb : Arr F S1024x16)
    (wv : Arr F S1024x1024) (bv : Arr F S1024) (mixing : Arr F S16x1024) (wd : Arr F S1024x1024) (bd gamma beta : Arr F S1024) :
    Arr F S2048x1024 :=
  lnOut (gatherRows hs fpos)
    (refMid (proj (gatherRows hs fpos) wq) (proj (gatherRows hs tpos) wk) mixing (projCb (gatherRows hs tpos) wcb)
      (vHeads (gatherRows hs tpos) wv bv))
    wd bd gamma beta

end Cert.Attn

end
-- ==== Proof.Spec.lean ====
/-
  The attention of one query row against all keys, on the extended reals.

  For a row of scores s : Fin n → EReal the softmax weight of column t is exp (s t − M) / ∑ u, exp (s u − M) with
  M the maximum of the row (the fold of max from −∞); the context entry is the weighted sum of one column of values.
  The two programs agree on this shape and differ only in how the row of scores is formed.
-/
import proofs.«128218_j79096117723503_2_alg».proof.Proof.Terms

noncomputable section

namespace Cert.Attn

open Idealize.ShloMosaic Idealize.ShloMosaic.ValueIdx Cert.ReferenceIdeal

/-- The value of the word of minus infinity. -/
abbrev negInf : EReal := Ideal.ofBits .f32 0xFF800000#32
/-- The value of the word of 0.125, the softmax scale 1/√64. -/
abbrev eighth : EReal := Ideal.ofBits .f32 0x3E000000#32

/-- A row's maximum: the fold of `max` over the row from minus infinity. -/
def rowMax {n : ℕ} (row : Fin n → EReal) : EReal := (Finset.univ : Finset (Fin n)).fold max negInf row

/-- The softmax weight of column `t` of a row. -/
def softmaxRow {n : ℕ} (row : Fin n → EReal) (t : Fin n) : EReal :=
  Ideal.div (Ideal.exp (row t - rowMax row)) (∑ u : Fin n, Ideal.exp (row u - rowMax row))

/-- One context entry: the softmax weights of a row of scores against one column of values. -/
def attnAt {n : ℕ} (row : Fin n → EReal) (val : Fin n → EReal) : EReal := ∑ t : Fin n, softmaxRow row t * val t

/-- The head an output column belongs to, and the column's place inside the head. -/
def headOf (i : S2048x1024.Idx) : Fin 16 := ⟨(i 1).val / 64, by have := idx2_lt1 i; omega⟩
def laneOf (i : S2048x1024.Idx) : Fin 64 := ⟨(i 1).val % 64, Nat.mod_lt _ (by decide)⟩
def rowOf (i : S2048x1024.Idx) : Fin 2048 := ⟨(i 0).val, idx2_lt0 i⟩

/-- The attention with the scale already folded into the mixing rows `ms` and the bias rows `cs`: at output (f, 64·h + d) the
    row of scores is u ↦ ∑ e, (q (f, e) · ms (h, e)) · k (u, e) + cs (h, u), weighed against the values v (h, ·, d). -/
def foldedMid (q : Arr Ideal S2048x1024) (kb : S2048x1024.Idx → EReal) (ms : Arr Ideal S16x1024) (cs : Arr Ideal S16x2048)
    (vb : S16x2048x64.Idx → EReal) : Arr Ideal S2048x1024 :=
  fun i => attnAt (fun u : Fin 2048 => (∑ e : Fin 1024, (q (ix2 (rowOf i) e) * ms (ix2 (headOf i) e)) * kb (ix2 u e)) + cs (ix2 (headOf i) u))
    (fun t : Fin 2048 => vb (ix3 (headOf i) t (laneOf i)))

/-- The attention with the scale applied to the biased scores: the row of scores is
    u ↦ (∑ e, (q (f, e) · mixing (h, e)) · k (u, e) + cb (u, h)) · ⅛. -/
def scaledMid (q k : Arr Ideal S2048x1024) (mixing : Arr Ideal S16x1024) (cbRaw : Arr Ideal S2048x16) (vh : Arr Ideal S16x2048x64) :
    Arr Ideal S2048x1024 :=
  fun i => attnAt (fun u : Fin 2048 => ((∑ e : Fin 1024, (q (ix2 (rowOf i) e) * mixing (ix2 (headOf i) e)) * k (ix2 u e)) + cbRaw (ix2 u (headOf i))) * eighth)
    (fun t : Fin 2048 => vh (ix3 (headOf i) t (laneOf i)))

end Cert.Attn

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.HeadScore.lean ====
/-
  The scores of one query row: the readings that bring a matrix product whose right operand is contracted along its
  last axis, and a unit row broadcast down the rows, to sums and entries on the extended reals.

  For a left operand a : [M, K] and a right operand b : [N, K] the product's entry (r, u) is the finite sum
  ∑ e, a (r, e) * b (u, e): both operands are read along their second axis. A row v : [1, n] cast to a vector and
  back and then broadcast to [m, n] reads v (0, e) at every (r, e).
-/
import proofs.«128218_j79096117723503_2_alg».proof.Proof.Gen.KernelIdeal
import proofs.«128218_j79096117723503_2_alg».proof.Proof.LibDense

noncomputable section

namespace Cert.KernelIdeal.HeadScore

open Idealize.ShloMosaic Idealize.ShloMosaic.ValueIdx

/-! ## A unit row broadcast down the rows -/

/-- A row v : [1, n], cast to [n], cast back to [1, n] and broadcast to [m, n], at (r, e), is v (0, e). -/
theorem unit_row {m n : ℕ} (v : (⟨2, ![1, n]⟩ : Shape).Idx → EReal) (h0 : (⟨2, ![1, n]⟩ : Shape).ShapeCasts ⟨1, ![n]⟩)
    (h1 : (⟨1, ![n]⟩ : Shape).ShapeCasts ⟨2, ![1, n]⟩) (h2 : (⟨2, ![1, n]⟩ : Shape).Broadcasts ⟨2, ![m, n]⟩)
    (r : Fin m) (e : Fin n) :
    broadcastTo ⟨2, ![m, n]⟩ (shapeCast ⟨2, ![1, n]⟩ (shapeCast ⟨1, ![n]⟩ v h0) h1) h2 (ix2 r e) = v (ix2 (0 : Fin 1) e) := by
  rw [shapeCast_shapeCast]
  refine broadcastTo_apply v h2 (ix2 r e) (ix2 (0 : Fin 1) e) (fun a => ?_)
  match a with
  | ⟨0, _⟩ => exact (if_pos rfl).symm
  | ⟨1, _⟩ =>
    show e.val = if n = 1 then 0 else e.val
    have hlt : e.val < n := e.isLt
    split
    · omega
    · rfl

/-! ## The contraction index of an [M, K] × [N, K] product is Fin K -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by Fin K: both operands are read along their second axis. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = ∑ k : Fin K, x (ix2 (i 0) k) * w (ix2 (i 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k) = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product of [M, K] by [N, K] into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = ∑ k : Fin K, x (ix2 (i 0) k) * w (ix2 (i 1) k) := by
  rw [Ideal.matmul_constant_zero_apply]
  exact tr_sum M K N x w i

/-! ## The two products of one head -/

/-- The scores' product: entry (r, u) of [512, 1024] by [2048, 1024] is ∑ e, a (r, e) * b (u, e). -/
theorem score_sum (a : FVec Ideal S512x1024 .bf16) (b : FVec Ideal S2048x1024 .bf16) (r : Fin 512) (u : Fin 2048) :
    matmul dot_S512x1024_S2048x1024_S512x2048_1_1_0_0_n_n none a b (constant (F := Ideal) S512x2048 .f32 0x00000000#32) (ix2 r u)
      = ∑ e : Fin 1024, a (ix2 r e) * b (ix2 u e) :=
  matmul_tr (M := 512) (K := 1024) (N := 2048) a b (ix2 r u)

/-- The values' product: entry (r, d) of [512, 2048] by [2048, 64] is ∑ t, p (r, t) * w (t, d). -/
theorem value_sum (p : FVec Ideal S512x2048 .bf16) (w : FVec Ideal S2048x64 .bf16) (r : Fin 512) (d : Fin 64) :
    matmul dot_S512x2048_S2048x64_S512x64_1_0_0_1_n_n none p w (constant (F := Ideal) S512x64 .f32 0x00000000#32) (ix2 r d)
      = ∑ t : Fin 2048, p (ix2 r t) * w (ix2 t d) :=
  Cert.LibDense.matmul_plain (M := 512) (K := 2048) (N := 64) p w (ix2 r d)

end Cert.KernelIdeal.HeadScore

end
-- ==== Proof.LibLogSoftmax.lean ====
/-
  The row-wise log-softmax on the extended reals, as both programs compute it, and the two column forms it needs.

  For a row `z : Fin d → EReal`: its maximum `M` is taken as the fold of `max` over the row from the word of minus
  infinity, joined once more with that word; the shifted row is `z k - M`; the result at column `q` is
  `(z q - M) - log (∑ k, exp (z k - M))`. Nothing here needs the entries to be finite: the statement is only that the
  result at a row depends on that row alone.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibLogSoftmax

open Idealize.ShloMosaic Idealize.ShloMosaic.ValueIdx

/-- The value of the word of minus infinity. -/
abbrev negInf : EReal := Ideal.ofBits .f32 0xFF800000#32

/-- A row's maximum: the fold of `max` from minus infinity, joined with minus infinity. -/
def rowMax {d : ℕ} (row : Fin d → EReal) : EReal :=
  max negInf ((Finset.univ : Finset (Fin d)).fold max negInf row)

/-- The log-softmax of a row at column `q`. -/
def lsmRow {d : ℕ} (row : Fin d → EReal) (q : Fin d) : EReal :=
  (row q - rowMax row) - Ideal.log (∑ k : Fin d, Ideal.exp (row k - rowMax row))

/-- Row-wise log-softmax of an `[n, d]` array. -/
def logSoftmax {n d : ℕ} (z : (⟨2, ![n, d]⟩ : Shape).Idx → EReal) : (⟨2, ![n, d]⟩ : Shape).Idx → EReal :=
  fun i => lsmRow (fun k => z (ix2 (i 0) k)) (i 1)

/-- Two arrays that agree along a row (each its own row) have the same log-softmax at any column of it. -/
theorem logSoftmax_congr {n n' d : ℕ} (z : (⟨2, ![n, d]⟩ : Shape).Idx → EReal) (z' : (⟨2, ![n', d]⟩ : Shape).Idx → EReal)
    (i : (⟨2, ![n, d]⟩ : Shape).Idx) (i' : (⟨2, ![n', d]⟩ : Shape).Idx) (hcol : (i 1).val = (i' 1).val)
    (hrow : ∀ k : Fin d, z (ix2 (i 0) k) = z' (ix2 (i' 0) k)) : logSoftmax z i = logSoftmax z' i' := by
  unfold logSoftmax
  have hr : (fun k : Fin d => z (ix2 (i 0) k)) = fun k : Fin d => z' (ix2 (i' 0) k) := funext hrow
  have hc : (i 1 : Fin d) = (i' 1 : Fin d) := Fin.ext hcol
  rw [hr, hc]

/-! ## The two column forms: a vector as a column, and a column broadcast along the rows -/

/-- A vector `v : [n]` cast to the column `[n, 1]`, at (r, 0), is `v r`. -/
theorem col_cast {n : ℕ} (v : (⟨1, ![n]⟩ : Shape).Idx → EReal) (h : (⟨1, ![n]⟩ : Shape).ShapeCasts ⟨2, ![n, 1]⟩)
    (y : (⟨2, ![n, 1]⟩ : Shape).Idx) : shapeCast ⟨2, ![n, 1]⟩ v h y = v (ix1 (y 0)) := by
  refine shapeCast_apply v h y (ix1 (y 0)) ?_
  rw [Shape.rowMajor_val_one, Shape.rowMajor_val_two]
  have h1 : (y 1).val < 1 := idx2_lt1 y
  show (y 0).val = (y 0).val * 1 + (y 1).val
  omega

/-- A column `u : [n, 1]` broadcast to `[n, d]`, at (r, j), is `u (r, 0)`. -/
theorem col_bcast {n d : ℕ} (u : (⟨2, ![n, 1]⟩ : Shape).Idx → EReal) (h : (⟨2, ![n, 1]⟩ : Shape).Broadcasts ⟨2, ![n, d]⟩)
    (i : (⟨2, ![n, d]⟩ : Shape).Idx) : broadcastTo ⟨2, ![n, d]⟩ u h i = u (ix2 (i 0) ⟨0, Nat.one_pos⟩) := by
  refine broadcastTo_apply u h i (ix2 (i 0) ⟨0, Nat.one_pos⟩) (fun a => ?_)
  match a with
  | ⟨0, _⟩ =>
    show (i 0).val = if n = 1 then 0 else (i 0).val
    have hlt : (i 0).val < n := idx2_lt0 i
    split
    · omega
    · rfl
  | ⟨1, _⟩ => exact (if_pos rfl).symm

end Cert.LibLogSoftmax

end
-- ==== Proof.HeadSoft.lean ====
/-
  The softmax of one row of scores, as the vector unit forms it, read at an entry.

  For scores S : [512, 2048] the row maximum is the fold of max along the second axis from minus infinity; as a
  column broadcast back along the row it is subtracted, the exponential is taken, the row sum of the exponentials is
  formed the same way and divides them. At (r, t) this is exp (S (r, t) − M r) / ∑ u, exp (S (r, u) − M r), the softmax
  weight of column t of row r.
-/
import proofs.«128218_j79096117723503_2_alg».proof.Proof.Gen.KernelIdeal
import proofs.«128218_j79096117723503_2_alg».proof.Proof.Spec
import proofs.«128218_j79096117723503_2_alg».proof.Proof.LibLogSoftmax

noncomputable section

namespace Cert.KernelIdeal.HeadSoft

open Idealize.ShloMosaic Idealize.ShloMosaic.ValueIdx Cert.KernelIdeal.Facts₀

/-- The index over a reduced row index r with the coordinate u inserted on the second axis is (r, u). -/
theorem lift_row (h : S512x2048.Reduces [1] S512) (r : Fin 512) (u : Fin 2048) :
    h.lift (ix1 r) u = ix2 r u :=
  funext fun a => Fin.ext (by
    match a with
    | ⟨0, _⟩ => rfl
    | ⟨1, _⟩ => rfl)

/-- A row maximum: the reduction by max along the second axis from minus infinity, at r, is the row's maximum. -/
theorem row_max (src : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = Cert.Attn.rowMax (fun u : Fin 2048 => src (ix2 r u)) := by
  refine (Ideal.multiReduction_maximumf_single src 0xFF800000#32 h hφ hacc (ix1 r)).trans ?_
  have hf : (src ∘ h.lift (ix1 r)) = fun u : Fin 2048 => src (ix2 r u) :=
    funext fun u => congrArg src (lift_row h r u)
  rw [hf]
  rfl

/-- A row sum: the reduction by addition along the second axis from zero, at r, is the sum of the row. -/
theorem row_sum (src : FVec Ideal S512x2048 .f32) (h : S512x2048.Reduces [1] S512) (hφ : FKind.Formats .f32)
    (hacc : (0x00000000#32 : BitVec 32) = FKind.add.neutral .f32 hφ) (r : Fin 512) :
    multiReduction .add [1] S512 src 0x00000000#32 h hφ hacc (ix1 r) = ∑ u : Fin 2048, src (ix2 r u) := by
  refine (Ideal.multiReduction_add_single src 0x00000000#32 h hφ hacc (ix1 r)).trans ?_
  exact Finset.sum_congr rfl fun u _ => congrArg src (lift_row h r u)

/-- A vector v : [512] as a column broadcast along the rows, at (r, u), is v r. -/
theorem col (v : FVec Ideal S512 .f32) (h1 : S512.ShapeCasts S512x1) (h2 : S512x1.Broadcasts S512x2048) (r : Fin 512) (u : Fin 2048) :
    broadcastTo S512x2048 (shapeCast S512x1 v h1) h2 (ix2 r u) = v (ix1 r) :=
  (Cert.LibLogSoftmax.col_bcast (n := 512) (d := 2048) _ h2 (ix2 r u)).trans
    (Cert.LibLogSoftmax.col_cast (n := 512) v h1 _)

/-- The exponentials of the shifted row: at (r, u), exp (S (r, u) − M) with M the maximum of row r. -/
theorem shift_apply (S : FVec Ideal S512x2048 .f32) (r : Fin 512) (u : Fin 2048) :
    exp (subf S (broadcastTo S512x2048 (shapeCast S512x1
        (multiReduction .maximumf [1] S512 S 0xFF800000#32 reduces_S512x2048_S512 (.inl rfl) rfl) shapeCasts_S512_S512x1)
        broadcasts_S512x1_S512x2048)) (ix2 r u)
      = Ideal.exp (S (ix2 r u) - Cert.Attn.rowMax (fun k : Fin 2048 => S (ix2 r k))) := by
  show Ideal.exp (S (ix2 r u) - broadcastTo S512x2048 (shapeCast S512x1
        (multiReduction .maximumf [1] S512 S 0xFF800000#32 reduces_S512x2048_S512 (.inl rfl) rfl) shapeCasts_S512_S512x1)
        broadcasts_S512x1_S512x2048 (ix2 r u)) = _
  rw [col]
  exact congrArg (fun m : EReal => Ideal.exp (S (ix2 r u) - m)) (row_max S reduces_S512x2048_S512 (.inl rfl) rfl r)

/-- The normalised row: at (r, t), E (r, t) divided by the sum of row r of E. -/
theorem norm_apply (E : FVec Ideal S512x2048 .f32) (r : Fin 512) (t : Fin 2048) :
    truncf .bf16 (divf E (broadcastTo S512x2048 (shapeCast S512x1
        (multiReduction .add [1] S512 E 0x00000000#32 reduces_S512x2048_S512 (.inl rfl) rfl) shapeCasts_S512_S512x1)
        broadcasts_S512x1_S512x2048)) bitsLt_bf16_f32 (ix2 r t)
      = Ideal.div (E (ix2 r t)) (∑ u : Fin 2048, E (ix2 r u)) := by
  show Ideal.div (E (ix2 r t)) (broadcastTo S512x2048 (shapeCast S512x1
        (multiReduction .add [1] S512 E 0x00000000#32 reduces_S512x2048_S512 (.inl rfl) rfl) shapeCasts_S512_S512x1)
        broadcasts_S512x1_S512x2048 (ix2 r t)) = _
  rw [col]
  exact congrArg (fun m : EReal => Ideal.div (E (ix2 r t)) m) (row_sum E reduces_S512x2048_S512 (.inl rfl) rfl r)

/-- The block of values with its unit axis dropped: at (t, d) it is the block at (0, t, d). -/
theorem value_cast (vs : Vec Ideal S1x2048x64 .bf16) (h : S1x2048x64.ShapeCasts S2048x64) (t : Fin 2048) (d : Fin 64) :
    shapeCast S2048x64 vs h (ix2 t d) = vs (ix3 (0 : Fin 1) t d) := by
  refine shapeCast_apply vs h (ix2 t d) (ix3 (0 : Fin 1) t d) ?_
  rw [Shape.rowMajor_val_three, Shape.rowMajor_val_two]
  show (0 * 2048 + t.val) * 64 + d.val = t.val * 64 + d.val
  omega

end Cert.KernelIdeal.HeadSoft

end
-- ==== Proof.HeadValue.lean ====
/-
  One head of the attention kernel at one entry of its [512, 64] result: the row of scores against all 2048 keys,
  its softmax, and the weighted sum of one column of the head's values.
-/
import proofs.«128218_j79096117723503_2_alg».proof.Proof.Gen.KernelIdeal.Skeleton
import proofs.«128218_j79096117723503_2_alg».proof.Proof.Spec
import proofs.«128218_j79096117723503_2_alg».proof.Proof.HeadScore
import proofs.«128218_j79096117723503_2_alg».proof.Proof.HeadSoft

noncomputable section

namespace Cert.KernelIdeal.HeadValue

open Idealize.ShloMosaic Idealize.ShloMosaic.ValueIdx Cert.KernelIdeal.Facts₀

/-! ## The three stages of one head, named -/

/-- The biased scores: the query block, each row scaled by the head's mixing row, times the keys along their
    second axis, plus the head's bias row. -/
def scores (x0 : FVec Ideal S512x1024 .f32) (x1 : FVec Ideal S2048x1024 .bf16) (mx : Vec Ideal S1x1024 .f32)
    (cb : Vec Ideal S1x2048 .f32) : FVec Ideal S512x2048 .f32 :=
  addf
    (matmul dot_S512x1024_S2048x1024_S512x2048_1_1_0_0_n_n none
      (truncf .bf16 (mulf x0 (broadcastTo S512x1024 (shapeCast S1x1024 (shapeCast S1024 mx shapeCasts_S1x1024_S1024)
        shapeCasts_S1024_S1x1024) broadcasts_S1x1024_S512x1024)) bitsLt_bf16_f32)
      x1 (constant S512x2048 .f32 0x00000000#32))
    (broadcastTo S512x2048 (shapeCast S1x2048 (shapeCast S2048 cb shapeCasts_S1x2048_S2048) shapeCasts_S2048_S1x2048)
      broadcasts_S1x2048_S512x2048)

/-- The exponentials of the scores shifted by their row maxima. -/
def expo (S : FVec Ideal S512x2048 .f32) : FVec Ideal S512x2048 .f32 :=
  exp (subf S (broadcastTo S512x2048 (shapeCast S512x1
    (multiReduction .maximumf [1] S512 S 0xFF800000#32 reduces_S512x2048_S512 (.inl rfl) rfl) shapeCasts_S512_S512x1)
    broadcasts_S512x1_S512x2048))

/-- The exponentials divided by their row sums. -/
def probs (E : FVec Ideal S512x2048 .f32) : FVec Ideal S512x2048 .bf16 :=
  truncf .bf16 (divf E (broadcastTo S512x2048 (shapeCast S512x1
    (multiReduction .add [1] S512 E 0x00000000#32 reduces_S512x2048_S512 (.inl rfl) rfl) shapeCasts_S512_S512x1)
    broadcasts_S512x1_S512x2048)) bitsLt_bf16_f32

/-- The head's result is the product of the normalised exponentials of the scores with the head's values. -/
theorem pay_eq (x0 : FVec Ideal S512x1024 .f32) (x1 : FVec Ideal S2048x1024 .bf16) (mx : Vec Ideal S1x1024 .f32)
    (cb : Vec Ideal S1x2048 .f32) (vs : Vec Ideal S1x2048x64 .bf16) :
    Cert.KernelIdeal.Gen.k0_pay2 (F := Ideal) x0 x1 mx cb vs
      = matmul dot_S512x2048_S2048x64_S512x64_1_0_0_1_n_n none (probs (expo (scores x0 x1 mx cb)))
          (shapeCast S2048x64 vs shapeCasts_S1x2048x64_S2048x64 : FVec Ideal S2048x64 .bf16)
          (constant S512x64 .f32 0x00000000#32) := rfl

/-- Entry (r, u) of the scores: ∑ e, (x0 (r, e) · mx (0, e)) · x1 (u, e) + cb (0, u). -/
theorem scores_apply (x0 : FVec Ideal S512x1024 .f32) (x1 : FVec Ideal S2048x1024 .bf16) (mx : Vec Ideal S1x1024 .f32)
    (cb : Vec Ideal S1x2048 .f32) (r : Fin 512) (u : Fin 2048) :
    scores x0 x1 mx cb (ix2 r u)
      = (∑ e : Fin 1024, (x0 (ix2 r e) * mx (ix2 (0 : Fin 1) e)) * x1 (ix2 u e)) + cb (ix2 (0 : Fin 1) u) := by
  unfold scores
  rw [addf_apply]
  refine congrArg₂ (· + ·) ?_ ?_
  · refine (HeadScore.score_sum _ x1 r u).trans (Finset.sum_congr rfl fun e _ => ?_)
    refine congrArg (· * x1 (ix2 u e)) ?_
    rw [truncf_apply, mulf_apply]
    exact congrArg (x0 (ix2 r e) * ·)
      (HeadScore.unit_row (m := 512) (n := 1024) mx shapeCasts_S1x1024_S1024 shapeCasts_S1024_S1x1024 broadcasts_S1x1024_S512x1024 r e)
  · exact HeadScore.unit_row (m := 512) (n := 2048) cb shapeCasts_S1x2048_S2048 shapeCasts_S2048_S1x2048 broadcasts_S1x2048_S512x2048 r u

theorem expo_apply (S : FVec Ideal S512x2048 .f32) (r : Fin 512) (u : Fin 2048) :
    expo S (ix2 r u) = Ideal.exp (S (ix2 r u) - Cert.Attn.rowMax (fun k : Fin 2048 => S (ix2 r k))) :=
  HeadSoft.shift_apply S r u

theorem probs_apply (E : FVec Ideal S512x2048 .f32) (r : Fin 512) (t : Fin 2048) :
    probs E (ix2 r t) = Ideal.div (E (ix2 r t)) (∑ u : Fin 2048, E (ix2 r u)) :=
  HeadSoft.norm_apply E r t

/-- The head's result at (r, d) for any reading of row r of the scores. -/
theorem head_of_row (x0 : FVec Ideal S512x1024 .f32) (x1 : FVec Ideal S2048x1024 .bf16) (mx : Vec Ideal S1x1024 .f32)
    (cb : Vec Ideal S1x2048 .f32) (vs : Vec Ideal S1x2048x64 .bf16) (r : Fin 512) (d : Fin 64)
    (row : Fin 2048 → EReal) (hrow : ∀ u : Fin 2048, scores x0 x1 mx cb (ix2 r u) = row u) :
    Cert.KernelIdeal.Gen.k0_pay2 (F := Ideal) x0 x1 mx cb vs (ix2 r d)
      = Cert.Attn.attnAt row (fun t : Fin 2048 => vs (ix3 (0 : Fin 1) t d)) := by
  obtain rfl : (fun u : Fin 2048 => scores x0 x1 mx cb (ix2 r u)) = row := funext hrow
  refine (congrFun (pay_eq x0 x1 mx cb vs) (ix2 r d)).trans ?_
  refine (HeadScore.value_sum _ _ r d).trans ?_
  unfold Cert.Attn.attnAt Cert.Attn.softmaxRow
  refine Finset.sum_congr rfl fun t _ => ?_
  refine congrArg₂ (· * ·) ?_ (HeadSoft.value_cast vs shapeCasts_S1x2048x64_S2048x64 t d)
  rw [probs_apply, expo_apply]
  exact congrArg (Ideal.div _) (Finset.sum_congr rfl fun u _ => expo_apply _ r u)

/-- At the ideal values, entry (r, d) of one head's result is the softmax of the row
    u ↦ ∑ e, (x0 (r, e) · mx (0, e)) · x1 (u, e) + cb (0, u) weighed against the values vs (0, ·, d). -/
theorem head_apply (x0 : FVec Ideal Cert.KernelIdeal.S512x1024 .f32) (x1 : FVec Ideal Cert.KernelIdeal.S2048x1024 .bf16)
    (mx : Vec Ideal Cert.KernelIdeal.S1x1024 .f32) (cb : Vec Ideal Cert.KernelIdeal.S1x2048 .f32)
    (vs : Vec Ideal Cert.KernelIdeal.S1x2048x64 .bf16) (r : Fin 512) (d : Fin 64) :
    Cert.KernelIdeal.Gen.k0_pay2 (F := Ideal) x0 x1 mx cb vs (ix2 r d)
      = Cert.Attn.attnAt (fun u : Fin 2048 => (∑ e : Fin 1024, (x0 (ix2 r e) * mx (ix2 (0 : Fin 1) e)) * x1 (ix2 u e)) + cb (ix2 (0 : Fin 1) u))
          (fun t : Fin 2048 => vs (ix3 (0 : Fin 1) t d)) :=
  head_of_row x0 x1 mx cb vs r d _ (fun u => scores_apply x0 x1 mx cb r u)

end Cert.KernelIdeal.HeadValue

end
-- ==== Proof.BlockHeads.lean ====
/-
  The sixteen heads of one block of the attention kernel. The printed body spells the heads' results differently
  (some are cut across two statements), but each is the same chain of operations applied to the query block, the
  key array and that head's mixing row, bias row and value slab; and the block's result, the sixteen [512, 64]
  pieces laid side by side, reads at column c piece c / 64 at column c % 64.
-/
import proofs.«128218_j79096117723503_2_alg».proof.Proof.Gen.KernelIdeal.Skeleton
import Idealize.ShloMosaic.Lib.Pipeline.Value
import Idealize.ShloMosaic.Lib.ValueIdx

noncomputable section

namespace Cert.KernelIdeal.BlockHeads

open Idealize.ShloMosaic Idealize.ShloMosaic.ValueIdx
open Cert.KernelIdeal Cert.KernelIdeal.Gen

variable {F : FTy → Type} [FloatOps F]

/-! ## Every head is the one chain -/

theorem head0 (v0 : Vec F S512x1024 .f32) (v2 : Vec F S2048x1024 .bf16) (a : Vec F S1x1024 .f32) (b : Vec F S1x2048 .f32)
    (c : Vec F S1x2048x64 .bf16) : k0_pay6 v0 v2 a b c = k0_pay2 (k0_pay4 v0) (k0_pay5 v2) a b c := by
  unfold k0_pay6 k0_pay2; rfl

theorem head1 (v0 : Vec F S512x1024 .f32) (v2 : Vec F S2048x1024 .bf16) (a : Vec F S1x1024 .f32) (b : Vec F S1x2048 .f32)
    (c : Vec F S1x2048x64 .bf16) : k0_pay9 (k0_pay7 v0 v2 a) (k0_pay8 b) c = k0_pay2 (k0_pay4 v0) (k0_pay5 v2) a b c := by
  unfold k0_pay9 k0_pay7 k0_pay8 k0_pay2; rfl

theorem head2 (v1 : FVec F S512x1024 .f32) (v3 : FVec F S2048x1024 .bf16) (a : Vec F S1x1024 .f32) (b : Vec F S1x2048 .f32)
    (c : Vec F S1x2048x64 .bf16) : k0_pay10 v1 v3 a b c = k0_pay2 v1 v3 a b c := by
  unfold k0_pay10 k0_pay2; rfl

theorem head3 (v1 : FVec F S512x1024 .f32) (v3 : FVec F S2048x1024 .bf16) (a : Vec F S1x1024 .f32) (b : Vec F S1x2048 .f32)
    (c : Vec F S1x2048x64 .bf16) : k0_pay11 v1 v3 a b c = k0_pay2 v1 v3 a b c := by
  unfold k0_pay11 k0_pay2; rfl

theorem head4 (v1 : FVec F S512x1024 .f32) (v3 : FVec F S2048x1024 .bf16) (a : Vec F S1x1024 .f32) (b : Vec F S1x2048 .f32)
    (c : Vec F S1x2048x64 .bf16) : k0_pay14 (k0_pay12 v1 v3 a b) (k0_pay13 v1 v3 a b) c = k0_pay2 v1 v3 a b c := by
  unfold k0_pay14 k0_pay13 k0_pay12 k0_pay2; rfl

theorem head5 (v1 : FVec F S512x1024 .f32) (v3 : FVec F S2048x1024 .bf16) (a : Vec F S1x1024 .f32) (b : Vec F S1x2048 .f32)
    (c : Vec F S1x2048x64 .bf16) : k0_pay15 v1 v3 a b c = k0_pay2 v1 v3 a b c := by
  unfold k0_pay15 k0_pay2; rfl

theorem head6 (v1 : FVec F S512x1024 .f32) (v3 : FVec F S2048x1024 .bf16) (a : Vec F S1x1024 .f32) (b : Vec F S1x2048 .f32)
    (c : Vec F S1x2048x64 .bf16) : k0_pay18 (k0_pay16 v1 v3 a) (k0_pay17 b) c = k0_pay2 v1 v3 a b c := by
  unfold k0_pay18 k0_pay16 k0_pay17 k0_pay2; rfl

theorem head7 (v1 : FVec F S512x1024 .f32) (v3 : FVec F S2048x1024 .bf16) (a : Vec F S1x1024 .f32) (b : Vec F S1x2048 .f32)
    (c : Vec F S1x2048x64 .bf16) : k0_pay19 v1 v3 a b c = k0_pay2 v1 v3 a b c := by
  unfold k0_pay19 k0_pay2; rfl

theorem head8 (v1 : FVec F S512x1024 .f32) (v3 : FVec F S2048x1024 .bf16) (a : Vec F S1x1024 .f32) (b : Vec F S1x2048 .f32)
    (c : Vec F S1x2048x64 .bf16) : k0_pay20 v1 v3 a b c = k0_pay2 v1 v3 a b c := by
  unfold k0_pay20 k0_pay2; rfl

theorem head9 (v1 : FVec F S512x1024 .f32) (v3 : FVec F S2048x1024 .bf16) (a : Vec F S1x1024 .f32) (b : Vec F S1x2048 .f32)
    (c : Vec F S1x2048x64 .bf16) : k0_pay23 (k0_pay21 v1 v3 a b) (k0_pay22 v1 v3 a b) c = k0_pay2 v1 v3 a b c := by
  unfold k0_pay23 k0_pay22 k0_pay21 k0_pay2; rfl

theorem head10 (v1 : FVec F S512x1024 .f32) (v3 : FVec F S2048x1024 .bf16) (a : Vec F S1x1024 .f32) (b : Vec F S1x2048 .f32)
    (c : Vec F S1x2048x64 .bf16) : k0_pay24 v1 v3 a b c = k0_pay2 v1 v3 a b c := by
  unfold k0_pay24 k0_pay2; rfl

theorem head11 (v1 : FVec F S512x1024 .f32) (v3 : FVec F S2048x1024 .bf16) (a : Vec F S1x1024 .f32) (b : Vec F S1x2048 .f32)
    (c : Vec F S1x2048x64 .bf16) : k0_pay27 (k0_pay25 v1 v3 a) (k0_pay26 b) c = k0_pay2 v1 v3 a b c := by
  unfold k0_pay27 k0_pay25 k0_pay26 k0_pay2; rfl

theorem head12 (v1 : FVec F S512x1024 .f32) (v3 : FVec F S2048x1024 .bf16) (a : Vec F S1x1024 .f32) (b : Vec F S1x2048 .f32)
    (c : Vec F S1x2048x64 .bf16) : k0_pay28 v1 v3 a b c = k0_pay2 v1 v3 a b c := by
  unfold k0_pay28 k0_pay2; rfl

theorem head13 (v1 : FVec F S512x1024 .f32) (v3 : FVec F S2048x1024 .bf16) (a : Vec F S1x1024 .f32) (b : Vec F S1x2048 .f32)
    (c : Vec F S1x2048x64 .bf16) : k0_pay29 v1 v3 a b c = k0_pay2 v1 v3 a b c := by
  unfold k0_pay29 k0_pay2; rfl

theorem head14 (v1 : FVec F S512x1024 .f32) (v3 : FVec F S2048x1024 .bf16) (a : Vec F S1x1024 .f32) (b : Vec F S1x2048 .f32)
    (c : Vec F S1x2048x64 .bf16) : k0_pay1 (k0_pay30 v1 v3 a b) (k0_pay31 v1 v3 a b) c = k0_pay2 v1 v3 a b c := by
  unfold k0_pay1 k0_pay31 k0_pay30 k0_pay2; rfl

/-! ## The sixteen pieces side by side -/

/-- The concatenation of sixteen [512, 64] pieces along the columns, at (r, c): piece c / 64 at (r, c % 64). -/
theorem pieces_apply (v : Fin 16 → FVec F S512x64 .f32) (r : Fin 512) (c : Fin 1024) :
    k0_pay3 (v 0) (v 1) (v 2) (v 3) (v 4) (v 5) (v 6) (v 7) (v 8) (v 9) (v 10) (v 11) (v 12) (v 13) (v 14) (v 15) (ix2 r c)
      = v ⟨c.val / 64, by have := c.isLt; omega⟩ (ix2 r ⟨c.val % 64, Nat.mod_lt _ (by decide)⟩) := by
  unfold k0_pay3
  refine concatenate_ofFn_apply (t := S512x1024) (s₁ := S512x64) (1 : Fin 2) v _ rfl 64 rfl (ix2 r c) ⟨c.val / 64, by have := c.isLt; omega⟩ rfl
    (ix2 r ⟨c.val % 64, Nat.mod_lt _ (by decide)⟩) rfl (fun b hb => ?_)
  match b with
  | ⟨0, _⟩ => rfl
  | ⟨1, _⟩ => exact absurd rfl hb

end Cert.KernelIdeal.BlockHeads

end
-- ==== Proof.BlockValue.lean ====
/-
  One block of the attention kernel's output at an index: row r, column c of the [512, 1024] block a grid point stores is
  head c / 64's attention of query row r, read at column c % 64 of that head's values.
-/
import proofs.«128218_j79096117723503_2_alg».proof.Proof.Gen.KernelIdeal.Frame
import proofs.«128218_j79096117723503_2_alg».proof.Proof.HeadValue
import proofs.«128218_j79096117723503_2_alg».proof.Proof.BlockHeads

noncomputable section

namespace Cert.KernelIdeal.BlockValue

open Idealize.ShloMosaic Idealize.ShloMosaic.ValueIdx
open Cert.KernelIdeal Cert.KernelIdeal.Gen

theorem hz2 : (![0, 0] : Fin 2 → Nat) = fun _ => 0 := funext fun a => by fin_cases a <;> rfl

/-! ## A head's three operands: one row of the mixing window, one row of the bias window, one slab of the values -/

/-- Row h of the [16, 1024] mixing window. -/
abbrev mixRect (h : Fin 16) : Rect S16x1024 :=
  Rect.unit (s := S16x1024) ![h.val, 0] S1x1024.size (fun a => by
    match a with
    | ⟨0, _⟩ => show h.val + 1 ≤ 16; have := h.isLt; omega
    | ⟨1, _⟩ => show 0 + 1024 ≤ 1024; omega)

/-- Row h of the [16, 2048] bias window. -/
abbrev biasRect (h : Fin 16) : Rect S16x2048 :=
  Rect.unit (s := S16x2048) ![h.val, 0] S1x2048.size (fun a => by
    match a with
    | ⟨0, _⟩ => show h.val + 1 ≤ 16; have := h.isLt; omega
    | ⟨1, _⟩ => show 0 + 2048 ≤ 2048; omega)

/-- Slab h of the [16, 2048, 64] value window. -/
abbrev valRect (h : Fin 16) : Rect S16x2048x64 :=
  Rect.unit (s := S16x2048x64) ![h.val, 0, 0] S1x2048x64.size (fun a => by
    match a with
    | ⟨0, _⟩ => show h.val + 1 ≤ 16; have := h.isLt; omega
    | ⟨1, _⟩ => show 0 + 2048 ≤ 2048; omega
    | ⟨2, _⟩ => show 0 + 64 ≤ 64; omega)

variable {F : FTy → Type} [FloatOps F]

/-- The load of row h of the mixing window, at (0, e), is the window at (h, e). -/
theorem ld_mix (x : Vec F S16x1024 .f32) (h : Fin 16) (e : Fin 1024) :
    View.ld x (mixRect h) (ix2 (0 : Fin 1) e) = x (ix2 h e) := by
  show x ((mixRect h).toLoadRect.idx (ix2 (0 : Fin 1) e)) = x (ix2 h e)
  refine congrArg x ?_
  funext a; apply Fin.ext
  match a with
  | ⟨0, _⟩ => show h.val + 1 * 0 = h.val; omega
  | ⟨1, _⟩ => show 0 + 1 * e.val = e.val; omega

/-- The load of row h of the bias window, at (0, u), is the window at (h, u). -/
theorem ld_bias (x : Vec F S16x2048 .f32) (h : Fin 16) (u : Fin 2048) :
    View.ld x (biasRect h) (ix2 (0 : Fin 1) u) = x (ix2 h u) := by
  show x ((biasRect h).toLoadRect.idx (ix2 (0 : Fin 1) u)) = x (ix2 h u)
  refine congrArg x ?_
  funext a; apply Fin.ext
  match a with
  | ⟨0, _⟩ => show h.val + 1 * 0 = h.val; omega
  | ⟨1, _⟩ => show 0 + 1 * u.val = u.val; omega

/-- The load of slab h of the value window, at (0, t, d), is the window at (h, t, d). -/
theorem ld_val (x : Vec F S16x2048x64 .bf16) (h : Fin 16) (t : Fin 2048) (d : Fin 64) :
    View.ld x (valRect h) (ix3 (0 : Fin 1) t d) = x (ix3 h t d) := by
  show x ((valRect h).toLoadRect.idx (ix3 (0 : Fin 1) t d)) = x (ix3 h t d)
  refine congrArg x ?_
  funext a; apply Fin.ext
  match a with
  | ⟨0, _⟩ => show h.val + 1 * 0 = h.val; omega
  | ⟨1, _⟩ => show 0 + 1 * t.val = t.val; omega
  | ⟨2, _⟩ => show 0 + 1 * d.val = d.val; omega

/-- The cast of the whole query block to its own shape is the block. -/
theorem q_block (x0 : Vec F S512x1024 .f32) : k0_pay4 (View.ld x0 r0_0) = x0 := by
  unfold k0_pay4
  rw [shapeCast_self, View.ld_unit_zero (S := S512x1024) hz2]

/-- The cast of the whole key array to its own shape is the array. -/
theorem k_block (x1 : Vec F S2048x1024 .bf16) : k0_pay5 (View.ld x1 r0_1) = x1 := by
  unfold k0_pay5
  rw [shapeCast_self, View.ld_unit_zero (S := S2048x1024) hz2]

/-- A column of the block belongs to one of the sixteen heads. -/
theorem head_lt (c : Fin 1024) : c.val / 64 < 16 := by have := c.isLt; omega

/-- What the body stores, as the sixteen heads over the three rectangles above. -/
theorem out_heads (x0 : Vec F S512x1024 .f32) (x1 : Vec F S2048x1024 .bf16) (x2 : Vec F S16x1024 .f32) (x3 : Vec F S16x2048 .f32)
    (x4 : Vec F S16x2048x64 .bf16) (r : Fin 512) (c : Fin 1024) :
    out0_5 x0 x1 x2 x3 x4 (ix2 r c)
      = k0_pay2 x0 x1 (View.ld x2 (mixRect ⟨c.val / 64, by have := c.isLt; omega⟩))
          (View.ld x3 (biasRect ⟨c.val / 64, by have := c.isLt; omega⟩)) (View.ld x4 (valRect ⟨c.val / 64, by have := c.isLt; omega⟩))
          (ix2 r ⟨c.val % 64, Nat.mod_lt _ (by decide)⟩) := by
  unfold out0_5
  rw [View.canon_unit_zero (S := S512x1024) hz2]
  rw [BlockHeads.head0, BlockHeads.head1, BlockHeads.head2, BlockHeads.head3, BlockHeads.head4, BlockHeads.head5, BlockHeads.head6,
    BlockHeads.head7, BlockHeads.head8, BlockHeads.head9, BlockHeads.head10, BlockHeads.head11, BlockHeads.head12, BlockHeads.head13,
    BlockHeads.head14, q_block, k_block]
  exact BlockHeads.pieces_apply (fun h : Fin 16 => k0_pay2 x0 x1 (View.ld x2 (mixRect h)) (View.ld x3 (biasRect h)) (View.ld x4 (valRect h))) r c

/-- The block at (r, c): head c / 64's attention of query row r at column c % 64 of the head's values. -/
theorem out_apply (x0 : Vec Ideal S512x1024 .f32) (x1 : Vec Ideal S2048x1024 .bf16) (x2 : Vec Ideal S16x1024 .f32) (x3 : Vec Ideal S16x2048 .f32)
    (x4 : Vec Ideal S16x2048x64 .bf16) (r : Fin 512) (c : Fin 1024) (h : Fin 16) (d : Fin 64) (hh : h.val = c.val / 64) (hd : d.val = c.val % 64) :
    out0_5 x0 x1 x2 x3 x4 (ix2 r c)
      = Cert.Attn.attnAt (fun u : Fin 2048 => (∑ e : Fin 1024, (x0 (ix2 r e) * x2 (ix2 h e)) * x1 (ix2 u e)) + x3 (ix2 h u))
          (fun t : Fin 2048 => x4 (ix3 h t d)) := by
  have eh : h = ⟨c.val / 64, head_lt c⟩ := Fin.ext hh
  have ed : d = ⟨c.val % 64, Nat.mod_lt _ (by decide)⟩ := Fin.ext hd
  subst eh ed
  rw [out_heads, HeadValue.head_apply]
  refine congrArg₂ Cert.Attn.attnAt (funext fun u => ?_) (funext fun t => ld_val x4 _ t _)
  refine congrArg₂ (· + ·) (Finset.sum_congr rfl fun e _ => ?_) (ld_bias x3 _ u)
  rw [ld_mix]

end Cert.KernelIdeal.BlockValue

end
-- ==== Proof.KernelFinal.lean ====
/-
  The attention region's output array after the four grid points: every query block's 16 heads, laid side by side,
  are the rows of one function of the five operand arrays as the region finds them.
-/
import proofs.«128218_j79096117723503_2_alg».proof.Proof.Gen.KernelIdeal.Frame
import proofs.«128218_j79096117723503_2_alg».proof.Proof.HeadValue
import proofs.«128218_j79096117723503_2_alg».proof.Proof.BlockValue
import Idealize.ShloMosaic.Lib.Pipeline.Value

noncomputable section

namespace Cert.KernelIdeal.HandValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## Where each window's block sits at a grid point -/

/-- The printed index maps over the four grid points: the query window and the output window move one block of 512 rows
    per point; the keys, the mixing rows, the bias rows and the values stay whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

/-- The query block at point t is rows 512 t … 512 t + 511 of the query array. -/
theorem q_at (m : (ℓ : Loc nD τ sig) → Buf (Elt Ideal) ℓ) (c : Dev nD) (t : Fin cfg0.N) (r : Fin 512) (e : Fin 1024) (f : Fin 2048) (hf : f.val = 512 * t.val + r.val) :
    iblk m c 0 t (ix2 r e) = V m c main_v16 (ix2 f e) := by
  obtain ⟨e0, e1, -⟩ := idx_facts t
  have hemb : ((cfg0.win 0).blk t).view.emb (ix2 r e) = ix2 f e := by
    funext a; apply Fin.ext
    match a with
    | ⟨0, _⟩ => show win0_0.index t (0 : Fin 2) * 512 + 1 * r.val = f.val; rw [e0, hf]; omega
    | ⟨1, _⟩ => show win0_0.index t (1 : Fin 2) * 1024 + 1 * e.val = e.val; rw [e1]; omega
  show V m c main_v16 (((cfg0.win 0).blk t).view.emb (ix2 r e)) = _
  rw [hemb]

/-- The key block at every point is the key array. -/
theorem k_at (m : (ℓ : Loc nD τ sig) → Buf (Elt Ideal) ℓ) (c : Dev nD) (t : Fin cfg0.N) (u : Fin 2048) (e : Fin 1024) :
    iblk m c 1 t (ix2 u e) = V m c main_v30 (ix2 u e) := by
  obtain ⟨-, -, e0, e1, -⟩ := idx_facts t
  have hemb : ((cfg0.win 1).blk t).view.emb (ix2 u e) = ix2 u e := by
    funext a; apply Fin.ext
    match a with
    | ⟨0, _⟩ => show win0_1.index t (0 : Fin 2) * 2048 + 1 * u.val = u.val; rw [e0]; omega
    | ⟨1, _⟩ => show win0_1.index t (1 : Fin 2) * 1024 + 1 * e.val = e.val; rw [e1]; omega
  show V m c main_v30 (((cfg0.win 1).blk t).view.emb (ix2 u e)) = _
  rw [hemb]

/-- The mixing block at every point is the array of mixing rows. -/
theorem mix_at (m : (ℓ : Loc nD τ sig) → Buf (Elt Ideal) ℓ) (c : Dev nD) (t : Fin cfg0.N) (h : Fin 16) (e : Fin 1024) :
    iblk m c 2 t (ix2 h e) = V m c main_v29 (ix2 h e) := by
  obtain ⟨-, -, -, -, e0, e1, -⟩ := idx_facts t
  have hemb : ((cfg0.win 2).blk t).view.emb (ix2 h e) = ix2 h e := by
    funext a; apply Fin.ext
    match a with
    | ⟨0, _⟩ => show win0_2.index t (0 : Fin 2) * 16 + 1 * h.val = h.val; rw [e0]; omega
    | ⟨1, _⟩ => show win0_2.index t (1 : Fin 2) * 1024 + 1 * e.val = e.val; rw [e1]; omega
  show V m c main_v29 (((cfg0.win 2).blk t).view.emb (ix2 h e)) = _
  rw [hemb]

/-- The bias block at every point is the array of bias rows. -/
theorem bias_at (m : (ℓ : Loc nD τ sig) → Buf (Elt Ideal) ℓ) (c : Dev nD) (t : Fin cfg0.N) (h : Fin 16) (u : Fin 2048) :
    iblk m c 3 t (ix2 h u) = V m c main_v21 (ix2 h u) := by
  obtain ⟨-, -, -, -, -, -, e0, e1, -⟩ := idx_facts t
  have hemb : ((cfg0.win 3).blk t).view.emb (ix2 h u) = ix2 h u := by
    funext a; apply Fin.ext
    match a with
    | ⟨0, _⟩ => show win0_3.index t (0 : Fin 2) * 16 + 1 * h.val = h.val; rw [e0]; omega
    | ⟨1, _⟩ => show win0_3.index t (1 : Fin 2) * 2048 + 1 * u.val = u.val; rw [e1]; omega
  show V m c main_v21 (((cfg0.win 3).blk t).view.emb (ix2 h u)) = _
  rw [hemb]

/-- The value block at every point is the array of the heads' values. -/
theorem val_at (m : (ℓ : Loc nD τ sig) → Buf (Elt Ideal) ℓ) (c : Dev nD) (t : Fin cfg0.N) (h : Fin 16) (s : Fin 2048) (d : Fin 64) :
    iblk m c 4 t (ix3 h s d) = V m c main_v31 (ix3 h s d) := by
  obtain ⟨-, -, -, -, -, -, -, -, e0, e1, e2, -⟩ := idx_facts t
  have hemb : ((cfg0.win 4).blk t).view.emb (ix3 h s d) = ix3 h s d := by
    funext a; apply Fin.ext
    match a with
    | ⟨0, _⟩ => show win0_4.index t (0 : Fin 3) * 16 + 1 * h.val = h.val; rw [e0]; omega
    | ⟨1, _⟩ => show win0_4.index t (1 : Fin 3) * 2048 + 1 * s.val = s.val; rw [e1]; omega
    | ⟨2, _⟩ => show win0_4.index t (2 : Fin 3) * 64 + 1 * d.val = d.val; rw [e2]; omega
  show V m c main_v31 (((cfg0.win 4).blk t).view.emb (ix3 h s d)) = _
  rw [hemb]

/-! ## What a point writes back -/

/-- The block of a point over any five operand blocks that read the five arrays where the point's windows sit, at block
    row r and column g, is the folded attention of the arrays at array row f = 512 t + r and column g. -/
theorem block_eq (x0 : Vec Ideal S512x1024 .f32) (x1 : Vec Ideal S2048x1024 .bf16) (x2 : Vec Ideal S16x1024 .f32) (x3 : Vec Ideal S16x2048 .f32)
    (x4 : Vec Ideal S16x2048x64 .bf16) (q : Cert.Attn.Arr Ideal S2048x1024) (kb : S2048x1024.Idx → EReal) (ms : Cert.Attn.Arr Ideal S16x1024) (cs : Cert.Attn.Arr Ideal S16x2048)
    (vb : S16x2048x64.Idx → EReal) (r : Fin 512) (f : Fin 2048) (g : Fin 1024)
    (h0 : ∀ e : Fin 1024, x0 (ix2 r e) = q (ix2 f e)) (h1 : ∀ (u : Fin 2048) (e : Fin 1024), x1 (ix2 u e) = kb (ix2 u e))
    (h2 : ∀ (h : Fin 16) (e : Fin 1024), x2 (ix2 h e) = ms (ix2 h e)) (h3 : ∀ (h : Fin 16) (u : Fin 2048), x3 (ix2 h u) = cs (ix2 h u))
    (h4 : ∀ (h : Fin 16) (s : Fin 2048) (d : Fin 64), x4 (ix3 h s d) = vb (ix3 h s d)) :
    out0_5 x0 x1 x2 x3 x4 (ix2 r g) = Cert.Attn.foldedMid q kb ms cs vb (ix2 f g) := by
  rw [BlockValue.out_apply x0 x1 x2 x3 x4 r g (Cert.Attn.headOf (ix2 f g)) (Cert.Attn.laneOf (ix2 f g)) rfl rfl]
  unfold Cert.Attn.foldedMid
  simp only [h0, h1, h2, h3, h4]
  rfl

/-- What the output window writes back of its staging buffer's contents: all of them. -/
theorem cut_out (X : S512x1024.Idx → EReal) (t : Fin cfg0.N) (r : Fin 512) (g : Fin 1024) :
    (cfg0.win 5).cut (grid0.coords t) X (ix2 r g) = X (ix2 r g) := rfl

/-- Block t of an array read at an index of the block: the array where the block's index sits. -/
theorem read_out (G : S2048x1024.Idx → EReal) (t : Fin cfg0.N) (r : Fin 512) (g : Fin 1024) :
    ((cfg0.win 5).blk t).view.read (Elt Ideal) G (ix2 r g) = G (((cfg0.win 5).blk t).view.emb (ix2 r g)) := rfl

/-- What point t writes back to the output array is block t of the folded attention of the five operand arrays. -/
theorem flushed_eq (m : (ℓ : Loc nD τ sig) → Buf (Elt Ideal) ℓ) (c : Dev nD) (t : Fin cfg0.N) :
    (dats m 0 c).flushed 5 t = ((cfg0.win 5).blk t).view.read (Elt Ideal)
      (Cert.Attn.foldedMid (V m c main_v16) (V m c main_v30) (V m c main_v29) (V m c main_v21) (V m c main_v31)) := by
  show (cfg0.win 5).cut (grid0.coords t) ((dats m 0 c).after 5 t) = _
  rw [after0_5]
  funext j
  obtain ⟨r, g, rfl⟩ : ∃ (r : Fin 512) (g : Fin 1024), j = ix2 r g := ⟨j 0, j 1, eq_ix2 j⟩
  have hN : cfg0.N = 4 := N_0
  have hf : 512 * t.val + r.val < 2048 := by have := t.isLt; have := r.isLt; omega
  obtain ⟨-, -, -, -, -, -, -, -, -, -, -, e0, e1⟩ := idx_facts t
  have hemb : ((cfg0.win 5).blk t).view.emb (ix2 r g) = ix2 (⟨512 * t.val + r.val, hf⟩ : Fin 2048) g := by
    funext a; apply Fin.ext
    match a with
    | ⟨0, _⟩ => show win0_5.index t (0 : Fin 2) * 512 + 1 * r.val = 512 * t.val + r.val; rw [e0]; omega
    | ⟨1, _⟩ => show win0_5.index t (1 : Fin 2) * 1024 + 1 * g.val = g.val; rw [e1]; omega
  refine (cut_out _ t r g).trans ?_
  refine Eq.trans ?_ (read_out _ t r g).symm
  rw [hemb]
  exact block_eq _ _ _ _ _ _ _ _ _ _ r ⟨512 * t.val + r.val, hf⟩ g (fun e => q_at m c t r e _ rfl) (k_at m c t) (mix_at m c t) (bias_at m c t) (val_at m c t)

/-! ## The four blocks cover the array -/

/-- An index of the output array is in point t's block iff each coordinate is in the block's range on its axis. -/
theorem mem_blk (t : Fin cfg0.N) (i : S2048x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v32).slice (win0_5.rect t)).set ↔ _
  rw [View.set_slice_whole, Rect.mem_set_unit]
  exact Iff.rfl

/-- Every row of the output array is in the block of the point its row over 512 names. -/
theorem cover (i : S2048x1024.Idx) : ∃ t : Fin cfg0.N, (cfg0.win 5).flush t = true ∧ i ∈ ((cfg0.win 5).blk t).view.set := by
  have hN : cfg0.N = 4 := N_0
  have hi0 : (i 0).val < 2048 := idx2_lt0 i
  have hi1 : (i 1).val < 1024 := idx2_lt1 i
  refine ⟨⟨(i 0).val / 512, by omega⟩, flush0_5 _, ?_⟩
  rw [mem_blk]
  obtain ⟨-, -, -, -, -, -, -, -, -, -, -, e0, e1⟩ := idx_facts ⟨(i 0).val / 512, by omega⟩
  intro a
  match a with
  | ⟨0, _⟩ => show win0_5.index _ (0 : Fin 2) * 512 ≤ (i 0).val ∧ (i 0).val < win0_5.index _ (0 : Fin 2) * 512 + 512; rw [e0]; show (i 0).val / 512 * 512 ≤ (i 0).val ∧ (i 0).val < (i 0).val / 512 * 512 + 512; omega
  | ⟨1, _⟩ => show win0_5.index _ (1 : Fin 2) * 1024 ≤ (i 1).val ∧ (i 1).val < win0_5.index _ (1 : Fin 2) * 1024 + 1024; rw [e1]; omega

/-- After the run the region's output array is the attention with the folded scale (`Cert.Attn.foldedMid`) of the
    arrays the region finds in its five operand windows: the queries, the keys, the scaled mixing rows, the scaled bias
    rows and the values. -/
theorem final (m : (ℓ : Loc nD τ sig) → Buf (Elt Ideal) ℓ) (c : Dev nD) :
    (dats m 0 c).arrAt 5 cfg0.N
      = Cert.Attn.foldedMid (V m c main_v16) (V m c main_v30) (V m c main_v29) (V m c main_v21) (V m c main_v31) :=
  (dats m 0 c).arrAt_eq_of_cover 5 (Cert.Attn.foldedMid (V m c main_v16) (V m c main_v30) (V m c main_v29) (V m c main_v21) (V m c main_v31))
    (fun t _ => flushed_eq m c t) cover

end Cert.KernelIdeal.HandValue

end
-- ==== Proof.KTerms.lean ====
/-
  The host operations the kernel's program applies before the attention region — the scale 1/8 folded into the mixing
  rows and into the transposed content bias, and the change of format of the keys and values (the identity on the
  extended reals) — and the program's result as a function of its thirteen arguments.
-/
import proofs.«128218_j79096117723503_2_alg».proof.Proof.Gen.KernelIdeal
import proofs.«128218_j79096117723503_2_alg».proof.Proof.Spec

noncomputable section

namespace Cert.Attn.K

open Idealize.ShloMosaic Cert.KernelIdeal
open Cert.KernelIdeal.Facts₀

variable {F : FTy → Type} [FloatOps F]

/-- The mixing rows scaled by 1/8. -/
def mixS (mixing : Arr F S16x1024) : Arr F S16x1024 :=
  mulf mixing (broadcastInDim S16x1024 ![] bcast_S_S16x1024 (constant (F := F) S_ .f32 0x3E000000#32))

/-- The content bias, one row per head, scaled by 1/8. -/
def cbS (cbRaw : Arr F S2048x16) : Arr F S16x2048 :=
  mulf (transpose S16x2048 [1, 0] cbRaw transposes_S2048x16_S16x2048_1_0)
    (broadcastInDim S16x2048 ![] bcast_S_S16x2048 (constant (F := F) S_ .f32 0x3E000000#32))

/-- A float array in the narrower format. -/
def toBf16 {s : Shape} (x : Arr F s) : (⟨s, .bf16⟩ : BufTy).Contents (Elt F) := truncf .bf16 x bitsLt_bf16_f32

/-- The kernel program's result as a function of its thirteen arguments: the shared stages around the attention
    with the scale folded into its operands. -/
def kernOut (hs : Arr Ideal S512x1024) (fpos tpos : IArr Ideal S2048) (wq wk : Arr Ideal S1024x1024) (wcb : Arr Ideal S1024x16)
    (wv : Arr Ideal S1024x1024) (bv : Arr Ideal S1024) (mixing : Arr Ideal S16x1024) (wd : Arr Ideal S1024x1024) (bd gamma beta : Arr Ideal S1024) :
    Arr Ideal S2048x1024 :=
  lnOut (gatherRows hs fpos)
    (foldedMid (proj (gatherRows hs fpos) wq) (toBf16 (proj (gatherRows hs tpos) wk)) (mixS mixing) (cbS (projCb (gatherRows hs tpos) wcb))
      (toBf16 (vHeads (gatherRows hs tpos) wv bv)))
    wd bd gamma beta

end Cert.Attn.K

end
-- ==== Proof.KernelHostEntry.lean ====
/-
  The arrays the attention region finds at its entry, as functions of the arguments: the host operations before
  the region gather the rows of the hidden states, project them, fold the scale 1/8 into the mixing rows and the
  transposed content bias, and change the format of the keys and the values.
-/
import proofs.«128218_j79096117723503_2_alg».proof.Proof.Gen.KernelIdeal.Frame
import proofs.«128218_j79096117723503_2_alg».proof.Proof.KTerms
import Idealize.ShloMosaic.Lib.StableHlo.Run

noncomputable section

namespace Cert.KernelIdeal.HandValue

open Idealize.ShloMosaic Idealize.ShloMosaic.TcCoe Idealize.SL.Sem
open Idealize.ShloMosaic.StableHlo
open Cert.KernelIdeal Cert.KernelIdeal.Gen
open Cert.Attn Cert.Attn.K

variable (m : (ℓ : Loc nD τ sig) → Buf (Elt Ideal) ℓ) (c : Dev nD)

attribute [local irreducible] Host.gather Host.remsi Ideal.matmul transpose shapeCast broadcastInDim in
set_option maxHeartbeats 1000000 in
/-- The region's residual operand: the gathered query rows. -/
theorem V_v8 : (V m c main_v8 : Arr Ideal S2048x1024)
    = gatherRows (m ((c.tc : Thread nD τ).loc main_arg0)) (m ((c.tc : Thread nD τ).loc main_arg1)) := by
  dsimp only [Gen.V, Gen.V0]
  simp only [hostOps0, hostOps0_1, hostOps0_2, hostOps0_3, hostOps0_4, List.flatten_cons, List.flatten_nil, List.append_nil,
    List.cons_append, List.nil_append]
  after_results_simp
  rfl

attribute [local irreducible] Host.gather Host.remsi Ideal.matmul transpose shapeCast broadcastInDim in
set_option maxHeartbeats 1000000 in
/-- The queries: the gathered query rows projected. -/
theorem V_v16 : (V m c main_v16 : Arr Ideal S2048x1024)
    = proj (gatherRows (m ((c.tc : Thread nD τ).loc main_arg0)) (m ((c.tc : Thread nD τ).loc main_arg1))) (m ((c.tc : Thread nD τ).loc main_arg3)) := by
  dsimp only [Gen.V, Gen.V0]
  simp only [hostOps0, hostOps0_1, hostOps0_2, hostOps0_3, hostOps0_4, List.flatten_cons, List.flatten_nil, List.append_nil,
    List.cons_append, List.nil_append]
  after_results_simp
  rfl

attribute [local irreducible] Host.gather Host.remsi Ideal.matmul transpose shapeCast broadcastInDim in
set_option maxHeartbeats 1000000 in
/-- The keys: the gathered key rows projected, in the narrower format. -/
theorem V_v30 : (V m c main_v30 : (⟨S2048x1024, .bf16⟩ : BufTy).Contents (Elt Ideal))
    = toBf16 (proj (gatherRows (m ((c.tc : Thread nD τ).loc main_arg0)) (m ((c.tc : Thread nD τ).loc main_arg2))) (m ((c.tc : Thread nD τ).loc main_arg4))) := by
  dsimp only [Gen.V, Gen.V0]
  simp only [hostOps0, hostOps0_1, hostOps0_2, hostOps0_3, hostOps0_4, List.flatten_cons, List.flatten_nil, List.append_nil,
    List.cons_append, List.nil_append]
  after_results_simp
  rfl

attribute [local irreducible] Host.gather Host.remsi Ideal.matmul transpose shapeCast broadcastInDim in
set_option maxHeartbeats 1000000 in
/-- The mixing rows scaled by 1/8. -/
theorem V_v29 : (V m c main_v29 : Arr Ideal S16x1024)
    = mixS (m ((c.tc : Thread nD τ).loc main_arg8)) := by
  dsimp only [Gen.V, Gen.V0]
  simp only [hostOps0, hostOps0_1, hostOps0_2, hostOps0_3, hostOps0_4, List.flatten_cons, List.flatten_nil, List.append_nil,
    List.cons_append, List.nil_append]
  after_results_simp
  rfl

attribute [local irreducible] Host.gather Host.remsi Ideal.matmul transpose shapeCast broadcastInDim in
set_option maxHeartbeats 1000000 in
/-- The content bias of the key rows, one row per head, scaled by 1/8. -/
theorem V_v21 : (V m c main_v21 : Arr Ideal S16x2048)
    = cbS (projCb (gatherRows (m ((c.tc : Thread nD τ).loc main_arg0)) (m ((c.tc : Thread nD τ).loc main_arg2))) (m ((c.tc : Thread nD τ).loc main_arg5))) := by
  dsimp only [Gen.V, Gen.V0]
  simp only [hostOps0, hostOps0_1, hostOps0_2, hostOps0_3, hostOps0_4, List.flatten_cons, List.flatten_nil, List.append_nil,
    List.cons_append, List.nil_append]
  after_results_simp
  rfl

attribute [local irreducible] Host.gather Host.remsi Ideal.matmul transpose shapeCast broadcastInDim in
set_option maxHeartbeats 1000000 in
/-- The values: the value projection of the key rows split into heads, in the narrower format. -/
theorem V_v31 : (V m c main_v31 : (⟨S16x2048x64, .bf16⟩ : BufTy).Contents (Elt Ideal))
    = toBf16 (vHeads (gatherRows (m ((c.tc : Thread nD τ).loc main_arg0)) (m ((c.tc : Thread nD τ).loc main_arg2))) (m ((c.tc : Thread nD τ).loc main_arg6)) (m ((c.tc : Thread nD τ).loc main_arg7))) := by
  dsimp only [Gen.V, Gen.V0]
  simp only [hostOps0, hostOps0_1, hostOps0_2, hostOps0_3, hostOps0_4, List.flatten_cons, List.flatten_nil, List.append_nil,
    List.cons_append, List.nil_append]
  after_results_simp
  rfl

end Cert.KernelIdeal.HandValue

end
-- ==== Proof.KernelHostTail.lean ====
/-
  The host operations after the attention region — output projection, bias, residual, and the layer normalisation
  of every row — as one function of the buffers they read.
-/
import proofs.«128218_j79096117723503_2_alg».proof.Proof.Gen.KernelIdeal.Frame
import proofs.«128218_j79096117723503_2_alg».proof.Proof.KTerms
import Idealize.ShloMosaic.Lib.StableHlo.Run

noncomputable section

namespace Cert.KernelIdeal.HandValue

open Idealize.ShloMosaic Idealize.ShloMosaic.TcCoe Idealize.SL.Sem
open Idealize.ShloMosaic.StableHlo
open Cert.KernelIdeal Cert.KernelIdeal.Gen
open Cert.Attn Cert.Attn.K

attribute [local irreducible] Host.reduceAdd Host.divf Host.sqrt Ideal.matmul broadcastInDim in
set_option maxHeartbeats 1000000 in
/-- From any buffer contents, the operations after the region leave in the result buffer the output stage
    (`Cert.Attn.lnOut`) of the residual rows, the region's output array and the last four arguments. -/
theorem tail_after (W : Valuation τ sig (Elt Ideal)) :
    (StableHlo.after (List.flatten [hostOps1, hostOps1_1, hostOps1_2]) W (Proc.devRef .tc main_v55) : Arr Ideal S2048x1024)
      = lnOut (W (Proc.devRef .tc main_v8)) (W (Proc.devRef .tc main_v32)) (W (Proc.devRef .tc main_arg9))
          (W (Proc.devRef .tc main_arg10)) (W (Proc.devRef .tc main_arg11)) (W (Proc.devRef .tc main_arg12)) := by
  simp only [hostOps1, hostOps1_1, hostOps1_2, List.flatten_cons, List.flatten_nil, List.append_nil,
    List.cons_append, List.nil_append]
  after_results_simp
  rfl

end Cert.KernelIdeal.HandValue

end
-- ==== Proof.KernelRun.lean ====
/-
  The kernel program's run read back: the host operations before the attention region compute its five operand
  arrays from the arguments, the region leaves the attention with the folded scale in its output array, and the host
  operations after it — output projection, residual, layer normalisation — turn that into the result.
-/
import proofs.«128218_j79096117723503_2_alg».proof.Proof.Gen.KernelIdeal.Frame
import proofs.«128218_j79096117723503_2_alg».proof.Proof.KernelFinal
import proofs.«128218_j79096117723503_2_alg».proof.Proof.KTerms
import proofs.«128218_j79096117723503_2_alg».proof.Proof.KernelHostEntry
import proofs.«128218_j79096117723503_2_alg».proof.Proof.KernelHostTail
import Idealize.ShloMosaic.Lib.Pipeline.Value
import Idealize.ShloMosaic.Lib.StableHlo.Run

noncomputable section

namespace Cert.KernelIdeal.HandValue

open Idealize.ShloMosaic Idealize.ShloMosaic.TcCoe Idealize.SL.Sem
open Cert.KernelIdeal Cert.KernelIdeal.Gen

/-- The output stage at equal operands. -/
theorem lnOut_congr {a a' b b' : Cert.Attn.Arr Ideal S2048x1024} {w w' : Cert.Attn.Arr Ideal S1024x1024}
    {d d' g g' e e' : Cert.Attn.Arr Ideal S1024} (ha : a = a') (hb : b = b') (hw : w = w') (hd : d = d') (hg : g = g') (he : e = e') :
    Cert.Attn.lnOut a b w d g e = Cert.Attn.lnOut a' b' w' d' g' e' := by
  subst ha hb hw hd hg he; rfl

/-- The attention with the folded scale at equal operands. -/
theorem foldedMid_congr {q q' : Cert.Attn.Arr Ideal S2048x1024} {kb kb' : S2048x1024.Idx → EReal} {ms ms' : Cert.Attn.Arr Ideal S16x1024}
    {cs cs' : Cert.Attn.Arr Ideal S16x2048} {vb vb' : S16x2048x64.Idx → EReal} (hq : q = q') (hk : kb = kb') (hm : ms = ms') (hc : cs = cs')
    (hv : vb = vb') : Cert.Attn.foldedMid q kb ms cs vb = Cert.Attn.foldedMid q' kb' ms' cs' vb' := by
  subst hq hk hm hc hv; rfl

/-- What the operations after the region leave in the result buffer: the output stage of the gathered query rows
    and of the region's output array, which is the attention with the folded scale of the five operand arrays. -/
theorem tail_v55 (m : (ℓ : Loc nD τ sig) → Buf (Elt Ideal) ℓ) (c : Dev nD) :
    Pipeline.afterTail₀ cfgs (dats m) 0 (V0 m) [hostOps1, hostOps1_1, hostOps1_2] c main_v55
      = Cert.Attn.K.kernOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Pipeline.afterTail₀
  refine (tail_after _).trans ?_
  exact lnOut_congr
    ((Pipeline.withArrays_of_ne spec0 c (V0 m c) _ main_v8 (by exact (by decide : ∀ w, Pipeline.arrRef spec0 w ≠ main_v8))).trans (V_v8 m c))
    (((Pipeline.withArrays_arr spec0 launch0.win.arr_inj c _ _ 5).trans (final m c)).trans
      (foldedMid_congr (V_v16 m c) (V_v30 m c) (V_v29 m c) (V_v21 m c) (V_v31 m c)))
    ((Pipeline.withArrays_of_ne spec0 c (V0 m c) _ main_arg9 (by exact (by decide : ∀ w, Pipeline.arrRef spec0 w ≠ main_arg9))).trans (V_main_arg9 m c))
    ((Pipeline.withArrays_of_ne spec0 c (V0 m c) _ main_arg10 (by exact (by decide : ∀ w, Pipeline.arrRef spec0 w ≠ main_arg10))).trans (V_main_arg10 m c))
    ((Pipeline.withArrays_of_ne spec0 c (V0 m c) _ main_arg11 (by exact (by decide : ∀ w, Pipeline.arrRef spec0 w ≠ main_arg11))).trans (V_main_arg11 m c))
    ((Pipeline.withArrays_of_ne spec0 c (V0 m c) _ main_arg12 (by exact (by decide : ∀ w, Pipeline.arrRef spec0 w ≠ main_arg12))).trans (V_main_arg12 m c))

/-- Every weakly fair execution of the kernel's program terminates with the result buffer at `kernOut` of the
    arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v55)
          = Cert.Attn.K.kernOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10))
              (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨((h c).2 main_v55 (Pipeline.mem_restRefs_of main_v55 (by decide) (by decide))).trans (tail_v55 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.HandValue

end
-- ==== Proof.RefOps.lean ====
/- @main's 150 host operations of the printed reference program, in order, each call's callee lines
   written at the call site over the call's buffer record. -/
import proofs.«128218_j79096117723503_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ StableHlo.nullary main_c (constantI S_ 32 512#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S2048 ![] bcast_S_S2048),
    StableHlo.TRef.binary (.of main_arg1 : StableHlo.TRef sig ⟨S2048, .i32⟩) main_call0.v3 main_call0.v4 Host.remsi,
    StableHlo.TRef.nullary main_call0.c_1 (constantI S_ 32 0#32),
    StableHlo.TRef.unary main_call0.c_1 main_call0.v5 (broadcastInDim S2048 ![] bcast_S_S2048),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S2048 ![] bcast_S_S2048),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S2048 ![] bcast_S_S2048),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S2048 ![] bcast_S_S2048),
    StableHlo.TRef.binary main_call0.v4 main_call0.v13 main_call0.v14 addi,
    StableHlo.TRef.ternary main_call0.v12 main_call0.v14 main_call0.v4 main_call0.v15 select,
    StableHlo.nullary main_c_0 (constantI S_ 32 512#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S2048 ![] bcast_S_S2048),
    StableHlo.TRef.binary (.of main_arg2 : StableHlo.TRef sig ⟨S2048, .i32⟩) main_call1.v3 main_call1.v4 Host.remsi,
    StableHlo.TRef.nullary main_call1.c_1 (constantI S_ 32 0#32),
    StableHlo.TRef.unary main_call1.c_1 main_call1.v5 (broadcastInDim S2048 ![] bcast_S_S2048),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S2048 ![] bcast_S_S2048),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S2048 ![] bcast_S_S2048),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S2048 ![] bcast_S_S2048),
    StableHlo.TRef.binary main_call1.v4 main_call1.v13 main_call1.v14 addi,
    StableHlo.TRef.ternary main_call1.v12 main_call1.v14 main_call1.v4 main_call1.v15 select,
    StableHlo.nullary main_c_1 (constantI S_ 32 0#32),
    StableHlo.unary main_c_1 main_v2 (broadcastInDim S2048 ![] bcast_S_S2048 : (⟨S_, .i32⟩ : BufTy).Contents (Elt F) → (⟨S2048, .i32⟩ : BufTy).Contents (Elt F)),
    StableHlo.binary main_v0 main_v2 main_v3 (cmpi .slt : (⟨S2048, .i32⟩ : BufTy).Contents (Elt F) → (⟨S2048, .i32⟩ : BufTy).Contents (Elt F) → (⟨S2048, .i1⟩ : BufTy).Contents (Elt F)),
    StableHlo.nullary main_c_2 (constantI S_ 32 512#32),
    StableHlo.unary main_c_2 main_v4 (broadcastInDim S2048 ![] bcast_S_S2048 : (⟨S_, .i32⟩ : BufTy).Contents (Elt F) → (⟨S2048, .i32⟩ : BufTy).Contents (Elt F)),
    StableHlo.binary main_v0 main_v4 main_v5 (addi : (⟨S2048, .i32⟩ : BufTy).Contents (Elt F) → (⟨S2048, .i32⟩ : BufTy).Contents (Elt F) → (⟨S2048, .i32⟩ : BufTy).Contents (Elt F)),
    StableHlo.ternary main_v3 main_v5 main_v0 main_v6 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v6 main_v7 (broadcastInDim S2048x1 ![0] bcast_S2048_S2048x1_0 : (⟨S2048, .i32⟩ : BufTy).Contents (Elt F) → (⟨S2048x1, .i32⟩ : BufTy).Contents (Elt F)),
    StableHlo.binary main_arg0 main_v7 main_v8 ((fun x i => Host.gather gather_S512x1024_S2048x1_S2048x1024_1_0_n_n_0_1_11024 x i) : (⟨S512x1024, .f32⟩ : BufTy).Contents (Elt F) → (⟨S2048x1, .i32⟩ : BufTy).Contents (Elt F) → (⟨S2048x1024, .f32⟩ : BufTy).Contents (Elt F)),
    StableHlo.nullary main_c_3 (constantI S_ 32 0#32),
    StableHlo.unary main_c_3 main_v9 (broadcastInDim S2048 ![] bcast_S_S2048 : (⟨S_, .i32⟩ : BufTy).Contents (Elt F) → (⟨S2048, .i32⟩ : BufTy).Contents (Elt F)),
    StableHlo.binary main_v1 main_v9 main_v10 (cmpi .slt : (⟨S2048, .i32⟩ : BufTy).Contents (Elt F) → (⟨S2048, .i32⟩ : BufTy).Contents (Elt F) → (⟨S2048, .i1⟩ : BufTy).Contents (Elt F)),
    StableHlo.nullary main_c_4 (constantI S_ 32 512#32),
    StableHlo.unary main_c_4 main_v11 (broadcastInDim S2048 ![] bcast_S_S2048 : (⟨S_, .i32⟩ : BufTy).Contents (Elt F) → (⟨S2048, .i32⟩ : BufTy).Contents (Elt F)),
    StableHlo.binary main_v1 main_v11 main_v12 (addi : (⟨S2048, .i32⟩ : BufTy).Contents (Elt F) → (⟨S2048, .i32⟩ : BufTy).Contents (Elt F) → (⟨S2048, .i32⟩ : BufTy).Contents (Elt F)),
    StableHlo.ternary main_v10 main_v12 main_v1 main_v13 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v13 main_v14 (broadcastInDim S2048x1 ![0] bcast_S2048_S2048x1_0 : (⟨S2048, .i32⟩ : BufTy).Contents (Elt F) → (⟨S2048x1, .i32⟩ : BufTy).Contents (Elt F)),
    StableHlo.binary main_arg0 main_v14 main_v15 ((fun x i => Host.gather gather_S512x1024_S2048x1_S2048x1024_1_0_n_n_0_1_11024 x i) : (⟨S512x1024, .f32⟩ : BufTy).Contents (Elt F) → (⟨S2048x1, .i32⟩ : BufTy).Contents (Elt F) → (⟨S2048x1024, .f32⟩ : BufTy).Contents (Elt F)),
    StableHlo.binary main_v8 main_arg3 main_v16 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.binary main_v15 main_arg4 main_v17 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.unary main_v16 main_v18 (broadcastInDim S1x2048x1024 ![1, 2] bcast_S2048x1024_S1x2048x1024_1_2 : (⟨S2048x1024, .f32⟩ : BufTy).Contents (Elt F) → (⟨S1x2048x1024, .f32⟩ : BufTy).Contents (Elt F)),
    StableHlo.unary main_arg8 main_v19 (broadcastInDim S16x1x1024 ![0, 2] bcast_S16x1024_S16x1x1024_0_2 : (⟨S16x1024, .f32⟩ : BufTy).Contents (Elt F) → (⟨S16x1x1024, .f32⟩ : BufTy).Contents (Elt F)),
    StableHlo.unary main_v18 main_v20 (broadcastInDim S16x2048x1024 ![0, 1, 2] bcast_S1x2048x1024_S16x2048x1024_0_1_2 : (⟨S1x2048x1024, .f32⟩ : BufTy).Contents (Elt F) → (⟨S16x2048x1024, .f32⟩ : BufTy).Contents (Elt F)),
    StableHlo.unary main_v19 main_v21 (broadcastInDim S16x2048x1024 ![0, 1, 2] bcast_S16x1x1024_S16x2048x1024_0_1_2 : (⟨S16x1x1024, .f32⟩ : BufTy).Contents (Elt F) → (⟨S16x2048x1024, .f32⟩ : BufTy).Contents (Elt F)),
    StableHlo.binary main_v20 main_v21 main_v22 (mulf : (⟨S16x2048x1024, .f32⟩ : BufTy).Contents (Elt F) → (⟨S16x2048x1024, .f32⟩ : BufTy).Contents (Elt F) → (⟨S16x2048x1024, .f32⟩ : BufTy).Contents (Elt F)),
    StableHlo.binary main_v22 main_v17 main_v23 ((fun l r => Host.dotGeneral dot_S16x2048x1024_S2048x1024_S16x2048x2048_2_1_01_0_n_n none l r) : (⟨S16x2048x1024, .f32⟩ : BufTy).Contents (Elt F) → (⟨S2048x1024, .f32⟩ : BufTy).Contents (Elt F) → (⟨S16x2048x2048, .f32⟩ : BufTy).Contents (Elt F)),
    StableHlo.binary main_v15 main_arg5 main_v24 ((fun l r => Host.dotGeneral dot_S2048x1024_S1024x16_S2048x16_1_0_0_1_n_n none l r) : (⟨S2048x1024, .f32⟩ : BufTy).Contents (Elt F) → (⟨S1024x16, .f32⟩ : BufTy).Contents (Elt F) → (⟨S2048x16, .f32⟩ : BufTy).Contents (Elt F)),
    StableHlo.unary main_v24 main_v25 ((transpose S16x2048 [1, 0] · transposes_S2048x16_S16x2048_1_0) : (⟨S2048x16, .f32⟩ : BufTy).Contents (Elt F) → (⟨S16x2048, .f32⟩ : BufTy).Contents (Elt F)),
    StableHlo.unary main_v25 main_v26 (broadcastInDim S16x1x2048 ![0, 2] bcast_S16x2048_S16x1x2048_0_2 : (⟨S16x2048, .f32⟩ : BufTy).Contents (Elt F) → (⟨S16x1x2048, .f32⟩ : BufTy).Contents (Elt F)),
    StableHlo.unary main_v26 main_v27 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    StableHlo.binary main_v23 main_v27 main_v28 (addf : (⟨S16x2048x2048, .f32⟩ : BufTy).Contents (Elt F) → (⟨S16x2048x2048, .f32⟩ : BufTy).Contents (Elt F) → (⟨S16x2048x2048, .f32⟩ : BufTy).Contents (Elt F)),
    StableHlo.nullary main_cst (constant S_ .f32 0x3E000000#32),
    StableHlo.unary main_cst main_v29 (broadcastInDim S16x2048x2048 ![] bcast_S_S16x2048x2048 : (⟨S_, .f32⟩ : BufTy).Contents (Elt F) → (⟨S16x2048x2048, .f32⟩ : BufTy).Contents (Elt F)),
    StableHlo.binary main_v28 main_v29 main_v30 (mulf : (⟨S16x2048x2048, .f32⟩ : BufTy).Contents (Elt F) → (⟨S16x2048x2048, .f32⟩ : BufTy).Contents (Elt F) → (⟨S16x2048x2048, .f32⟩ : BufTy).Contents (Elt F)),
    StableHlo.nullary main_cst_5 (constant S_ .f32 0xFF800000#32),
    StableHlo.binary main_v30 main_cst_5 main_v31 ((fun x v => Host.reduce FloatOps.maximumf x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    StableHlo.nullary main_cst_6 (constant S_ .f32 0xFF800000#32),
    StableHlo.unary main_cst_6 main_v32 (broadcastInDim S16x2048 ![] bcast_S_S16x2048 : (⟨S_, .f32⟩ : BufTy).Contents (Elt F) → (⟨S16x2048, .f32⟩ : BufTy).Contents (Elt F)),
    StableHlo.binary main_v32 main_v31 main_v33 (maximumf : (⟨S16x2048, .f32⟩ : BufTy).Contents (Elt F) → (⟨S16x2048, .f32⟩ : BufTy).Contents (Elt F) → (⟨S16x2048, .f32⟩ : BufTy).Contents (Elt F)),
    StableHlo.unary main_v33 main_v34 (broadcastInDim S16x2048x1 ![0, 1] bcast_S16x2048_S16x2048x1_0_1 : (⟨S16x2048, .f32⟩ : BufTy).Contents (Elt F) → (⟨S16x2048x1, .f32⟩ : BufTy).Contents (Elt F)),
    StableHlo.unary main_v34 main_v35 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    StableHlo.binary main_v30 main_v35 main_v36 (subf : (⟨S16x2048x2048, .f32⟩ : BufTy).Contents (Elt F) → (⟨S16x2048x2048, .f32⟩ : BufTy).Contents (Elt F) → (⟨S16x2048x2048, .f32⟩ : BufTy).Contents (Elt F)),
    StableHlo.unary main_v36 main_v37 (Host.exp : (⟨S16x2048x2048, .f32⟩ : BufTy).Contents (Elt F) → (⟨S16x2048x2048, .f32⟩ : BufTy).Contents (Elt F)),
    StableHlo.nullary main_cst_7 (constant S_ .f32 0x00000000#32),
    StableHlo.binary main_v37 main_cst_7 main_v38 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    StableHlo.unary main_v38 main_v39 (broadcastInDim S16x2048x1 ![0, 1] bcast_S16x2048_S16x2048x1_0_1 : (⟨S16x2048, .f32⟩ : BufTy).Contents (Elt F) → (⟨S16x2048x1, .f32⟩ : BufTy).Contents (Elt F)),
    StableHlo.unary main_v39 main_v40 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    StableHlo.binary main_v37 main_v40 main_v41 (Host.divf : (⟨S16x2048x2048, .f32⟩ : BufTy).Contents (Elt F) → (⟨S16x2048x2048, .f32⟩ : BufTy).Contents (Elt F) → (⟨S16x2048x2048, .f32⟩ : BufTy).Contents (Elt F)),
    StableHlo.binary main_v15 main_arg6 main_v42 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.unary main_arg7 main_v43 (broadcastInDim S1x1024 ![1] bcast_S1024_S1x1024_1 : (⟨S1024, .f32⟩ : BufTy).Contents (Elt F) → (⟨S1x1024, .f32⟩ : BufTy).Contents (Elt F)),
    StableHlo.unary main_v43 main_v44 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v42 main_v44 main_v45 (addf : (⟨S2048x1024, .f32⟩ : BufTy).Contents (Elt F) → (⟨S2048x1024, .f32⟩ : BufTy).Contents (Elt F) → (⟨S2048x1024, .f32⟩ : BufTy).Contents (Elt F)),
    StableHlo.reshape main_v45 main_v46 rfl shapeCasts_S2048x1024_S2048x16x64,
    StableHlo.unary main_v46 main_v47 ((transpose S16x2048x64 [1, 0, 2] · transposes_S2048x16x64_S16x2048x64_1_0_2) : (⟨S2048x16x64, .f32⟩ : BufTy).Contents (Elt F) → (⟨S16x2048x64, .f32⟩ : BufTy).Contents (Elt F)),
    StableHlo.binary main_v41 main_v47 main_v48 ((fun l r => Host.dotGeneral dot_S16x2048x2048_S16x2048x64_S16x2048x64_2_1_1_2_0_0 none l r) : (⟨S16x2048x2048, .f32⟩ : BufTy).Contents (Elt F) → (⟨S16x2048x64, .f32⟩ : BufTy).Contents (Elt F) → (⟨S16x2048x64, .f32⟩ : BufTy).Contents (Elt F)),
    StableHlo.unary main_v48 main_v49 ((transpose S2048x16x64 [1, 0, 2] · transposes_S16x2048x64_S2048x16x64_1_0_2) : (⟨S16x2048x64, .f32⟩ : BufTy).Contents (Elt F) → (⟨S2048x16x64, .f32⟩ : BufTy).Contents (Elt F)),
    StableHlo.reshape main_v49 main_v50 rfl shapeCasts_S2048x16x64_S2048x1024,
    StableHlo.binary main_v50 main_arg9 main_v51 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.unary main_arg10 main_v52 (broadcastInDim S1x1024 ![1] bcast_S1024_S1x1024_1 : (⟨S1024, .f32⟩ : BufTy).Contents (Elt F) → (⟨S1x1024, .f32⟩ : BufTy).Contents (Elt F)),
    StableHlo.unary main_v52 main_v53 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v51 main_v53 main_v54 (addf : (⟨S2048x1024, .f32⟩ : BufTy).Contents (Elt F) → (⟨S2048x1024, .f32⟩ : BufTy).Contents (Elt F) → (⟨S2048x1024, .f32⟩ : BufTy).Contents (Elt F)),
    StableHlo.binary main_v8 main_v54 main_v55 (addf : (⟨S2048x1024, .f32⟩ : BufTy).Contents (Elt F) → (⟨S2048x1024, .f32⟩ : BufTy).Contents (Elt F) → (⟨S2048x1024, .f32⟩ : BufTy).Contents (Elt F)),
    StableHlo.nullary main_cst_8 (constant S_ .f32 0x00000000#32),
    StableHlo.binary main_v55 main_cst_8 main_v56 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    StableHlo.unary main_v56 main_v57 (broadcastInDim S2048x1 ![0] bcast_S2048_S2048x1_0 : (⟨S2048, .f32⟩ : BufTy).Contents (Elt F) → (⟨S2048x1, .f32⟩ : BufTy).Contents (Elt F)),
    StableHlo.nullary main_cst_9 (constant S_ .f32 0x44800000#32),
    StableHlo.unary main_cst_9 main_v58 (broadcastInDim S2048x1 ![] bcast_S_S2048x1 : (⟨S_, .f32⟩ : BufTy).Contents (Elt F) → (⟨S2048x1, .f32⟩ : BufTy).Contents (Elt F)),
    StableHlo.binary main_v57 main_v58 main_v59 (Host.divf : (⟨S2048x1, .f32⟩ : BufTy).Contents (Elt F) → (⟨S2048x1, .f32⟩ : BufTy).Contents (Elt F) → (⟨S2048x1, .f32⟩ : BufTy).Contents (Elt F)),
    StableHlo.nullary main_c_10 (constantI S_ 32 0#32),
    StableHlo.TRef.nullary main_call2.cst (constant S_ .f32 0x00000000#32),
    StableHlo.TRef.binary (.of main_v55 : StableHlo.TRef sig ⟨S2048x1024, .f32⟩) main_call2.cst main_call2.v0 (fun x v => Host.reduceAdd x v reducesTo_S2048x1024_S2048_d1 h_S_),
    StableHlo.TRef.unary main_call2.v0 main_call2.v1 (broadcastInDim S2048x1 ![0] bcast_S2048_S2048x1_0),
    StableHlo.TRef.nullary main_call2.cst_0 (constant S_ .f32 0x44800000#32),
    StableHlo.TRef.unary main_call2.cst_0 main_call2.v2 (broadcastInDim S2048x1 ![] bcast_S_S2048x1),
    StableHlo.TRef.binary main_call2.v1 main_call2.v2 main_call2.v3 Host.divf,
    StableHlo.TRef.unary main_call2.v3 main_call2.v4 (broadcastInDim S2048x1024 ![0, 1] bcast_S2048x1_S2048x1024_0_1),
    StableHlo.TRef.binary (.of main_v55 : StableHlo.TRef sig ⟨S2048x1024, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x44800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S2048x1024_S2048_d1 h_S_),
    StableHlo.TRef.unary main_call2.v9 main_call2.v10 (broadcastInDim S2048x1 ![0] bcast_S2048_S2048x1_0),
    StableHlo.TRef.unary main_call2.v8 main_call2.v11 (broadcastInDim S2048x1 ![] bcast_S_S2048x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S2048x1 ![] bcast_S_S2048x1),
    StableHlo.TRef.ternary main_call2.v13 main_call2.v12 main_call2.call0.v1 main_call2.call0.v2 (fun p a b => select (broadcastInDim S2048x1 ![] bcast_S_S2048x1 p) a b),
    StableHlo.unary main_v59 main_v61 (broadcastInDim S2048x1024 ![0, 1] bcast_S2048x1_S2048x1024_0_1 : (⟨S2048x1, .f32⟩ : BufTy).Contents (Elt F) → (⟨S2048x1024, .f32⟩ : BufTy).Contents (Elt F)),
    StableHlo.binary main_v55 main_v61 main_v62 (subf : (⟨S2048x1024, .f32⟩ : BufTy).Contents (Elt F) → (⟨S2048x1024, .f32⟩ : BufTy).Contents (Elt F) → (⟨S2048x1024, .f32⟩ : BufTy).Contents (Elt F)),
    StableHlo.nullary main_cst_11 (constant S_ .f32 0x3727C5AC#32),
    StableHlo.unary main_cst_11 main_v63 (broadcastInDim S2048x1 ![] bcast_S_S2048x1 : (⟨S_, .f32⟩ : BufTy).Contents (Elt F) → (⟨S2048x1, .f32⟩ : BufTy).Contents (Elt F)),
    StableHlo.binary main_v60 main_v63 main_v64 (addf : (⟨S2048x1, .f32⟩ : BufTy).Contents (Elt F) → (⟨S2048x1, .f32⟩ : BufTy).Contents (Elt F) → (⟨S2048x1, .f32⟩ : BufTy).Contents (Elt F)),
    StableHlo.unary main_v64 main_v65 (Host.sqrt : (⟨S2048x1, .f32⟩ : BufTy).Contents (Elt F) → (⟨S2048x1, .f32⟩ : BufTy).Contents (Elt F)),
    StableHlo.unary main_v65 main_v66 (broadcastInDim S2048x1024 ![0, 1] bcast_S2048x1_S2048x1024_0_1 : (⟨S2048x1, .f32⟩ : BufTy).Contents (Elt F) → (⟨S2048x1024, .f32⟩ : BufTy).Contents (Elt F)),
    StableHlo.binary main_v62 main_v66 main_v67 (Host.divf : (⟨S2048x1024, .f32⟩ : BufTy).Contents (Elt F) → (⟨S2048x1024, .f32⟩ : BufTy).Contents (Elt F) → (⟨S2048x1024, .f32⟩ : BufTy).Contents (Elt F)),
    StableHlo.unary main_arg11 main_v68 (broadcastInDim S1x1024 ![1] bcast_S1024_S1x1024_1 : (⟨S1024, .f32⟩ : BufTy).Contents (Elt F) → (⟨S1x1024, .f32⟩ : BufTy).Contents (Elt F)),
    StableHlo.unary main_v68 main_v69 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v67 main_v69 main_v70 (mulf : (⟨S2048x1024, .f32⟩ : BufTy).Contents (Elt F) → (⟨S2048x1024, .f32⟩ : BufTy).Contents (Elt F) → (⟨S2048x1024, .f32⟩ : BufTy).Contents (Elt F)),
    StableHlo.unary main_arg12 main_v71 (broadcastInDim S1x1024 ![1] bcast_S1024_S1x1024_1 : (⟨S1024, .f32⟩ : BufTy).Contents (Elt F) → (⟨S1x1024, .f32⟩ : BufTy).Contents (Elt F)),
    StableHlo.unary main_v71 main_v72 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v70 main_v72 main_v73 (addf : (⟨S2048x1024, .f32⟩ : BufTy).Contents (Elt F) → (⟨S2048x1024, .f32⟩ : BufTy).Contents (Elt F) → (⟨S2048x1024, .f32⟩ : BufTy).Contents (Elt F)) ]

end Cert.ReferenceIdeal.HandRun

end
-- ==== Proof.RefRun.lean ====
/- The reference program's run, by hand: @main as the straight line of its host operations (the three
   outlined functions written out at their calls), what every weakly fair execution of it leaves in
   each buffer — the fold of the operations' results over the launch contents —, and that fold read at
   the result buffer: the attention layer's stages composed, as a function of the thirteen arguments. -/
import proofs.«128218_j79096117723503_2_alg».proof.Proof.RefOps
import proofs.«128218_j79096117723503_2_alg».proof.Proof.Terms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- @main is that straight line: with the two windows, the functions' definitions unfolded at their calls and
    the call records at their fields, both sides are one chain of host steps once sequencing is reassociated. -/
theorem main_eq (c : Dev nD) : main (F := F) c = seq ops := by
  simp only [main, main_part0, main_part1, fn_remainder.body, fn_where.body, fn_var.body, fn_where_0.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 65536 in
set_option maxHeartbeats 4000000 in
/-- Every operation names TensorCore buffers only: the claim over the list is the conjunction of one claim per
    operation, and each is its builder's fact. -/
theorem ops_sub : (ops : List (HloOp τ sig (Elt F))).Forall fun op => op.bufs ⊆ tcRefs τ sig := by
  simp only [ops, List.forall_cons, List.Forall, nullary_bufs_sub, unary_bufs_sub, binary_bufs_sub, ternary_bufs_sub,
    reshape_bufs_sub, and_self]

set_option maxRecDepth 65536 in
set_option maxHeartbeats 4000000 in
/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! The arguments' buffers are written by no operation: the fold leaves them as they were. -/

set_option maxRecDepth 65536 in
set_option maxHeartbeats 4000000 in
theorem arg0_eq (V : Valuation τ sig (Elt F)) :
    after ops V (main_arg0 : DevRef τ sig) = V (main_arg0 : DevRef τ sig) := by
  after_results_simp

set_option maxRecDepth 65536 in
set_option maxHeartbeats 4000000 in
theorem arg1_eq (V : Valuation τ sig (Elt F)) :
    after ops V (main_arg1 : DevRef τ sig) = V (main_arg1 : DevRef τ sig) := by
  after_results_simp

set_option maxRecDepth 65536 in
set_option maxHeartbeats 4000000 in
theorem arg2_eq (V : Valuation τ sig (Elt F)) :
    after ops V (main_arg2 : DevRef τ sig) = V (main_arg2 : DevRef τ sig) := by
  after_results_simp

set_option maxRecDepth 65536 in
set_option maxHeartbeats 4000000 in
theorem arg3_eq (V : Valuation τ sig (Elt F)) :
    after ops V (main_arg3 : DevRef τ sig) = V (main_arg3 : DevRef τ sig) := by
  after_results_simp

set_option maxRecDepth 65536 in
set_option maxHeartbeats 4000000 in
theorem arg4_eq (V : Valuation τ sig (Elt F)) :
    after ops V (main_arg4 : DevRef τ sig) = V (main_arg4 : DevRef τ sig) := by
  after_results_simp

set_option maxRecDepth 65536 in
set_option maxHeartbeats 4000000 in
theorem arg5_eq (V : Valuation τ sig (Elt F)) :
    after ops V (main_arg5 : DevRef τ sig) = V (main_arg5 : DevRef τ sig) := by
  after_results_simp

set_option maxRecDepth 65536 in
set_option maxHeartbeats 4000000 in
theorem arg6_eq (V : Valuation τ sig (Elt F)) :
    after ops V (main_arg6 : DevRef τ sig) = V (main_arg6 : DevRef τ sig) := by
  after_results_simp

set_option maxRecDepth 65536 in
set_option maxHeartbeats 4000000 in
theorem arg7_eq (V : Valuation τ sig (Elt F)) :
    after ops V (main_arg7 : DevRef τ sig) = V (main_arg7 : DevRef τ sig) := by
  after_results_simp

set_option maxRecDepth 65536 in
set_option maxHeartbeats 4000000 in
theorem arg8_eq (V : Valuation τ sig (Elt F)) :
    after ops V (main_arg8 : DevRef τ sig) = V (main_arg8 : DevRef τ sig) := by
  after_results_simp

set_option maxRecDepth 65536 in
set_option maxHeartbeats 4000000 in
theorem arg9_eq (V : Valuation τ sig (Elt F)) :
    after ops V (main_arg9 : DevRef τ sig) = V (main_arg9 : DevRef τ sig) := by
  after_results_simp

set_option maxRecDepth 65536 in
set_option maxHeartbeats 4000000 in
theorem arg10_eq (V : Valuation τ sig (Elt F)) :
    after ops V (main_arg10 : DevRef τ sig) = V (main_arg10 : DevRef τ sig) := by
  after_results_simp

set_option maxRecDepth 65536 in
set_option maxHeartbeats 4000000 in
theorem arg11_eq (V : Valuation τ sig (Elt F)) :
    after ops V (main_arg11 : DevRef τ sig) = V (main_arg11 : DevRef τ sig) := by
  after_results_simp

set_option maxRecDepth 65536 in
set_option maxHeartbeats 4000000 in
theorem arg12_eq (V : Valuation τ sig (Elt F)) :
    after ops V (main_arg12 : DevRef τ sig) = V (main_arg12 : DevRef τ sig) := by
  after_results_simp

attribute [local irreducible] Host.reduce Host.reduceAdd Host.gather transpose shapeCast in
set_option maxRecDepth 65536 in
set_option maxHeartbeats 4000000 in
/-- The fold at the result buffer is the stages' composition by computation: the fold unrolled, each operation's
    result read at its own buffer and passed over at every other (the references differ), what is left are the
    operations' functions composed over the arguments' contents, which is how the stages are defined — the typed
    references' transports are the identity at these literal references. The reductions, the gather, the
    transposition and the reshape are kept folded meanwhile: the equation never looks inside them. -/
theorem out_eq (V : Valuation τ sig (Elt F)) :
    after ops V (main_v73 : DevRef τ sig)
      = Cert.Attn.refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) := by
  after_results_simp
  rfl

/-- On every device, for any float values, from any memory with zero counters: every weakly fair execution of
    @main terminates with the result buffer at the stages' composition over the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73)
        = Cert.Attn.refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v73).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _), (h c main_arg11).trans (arg11_eq _),
      (h c main_arg12).trans (arg12_eq _)⟩)
    (run_main m ρ)

end Cert.ReferenceIdeal.HandRun

end
-- ==== Proof.RefMidOps.lean ====
/-
  The reference's host operations between the projections and the output projection, each read at one index:
  the broadcasts, the two transposes, the final reshape, the two contractions, the row maximum and the row sum.
-/
import proofs.«128218_j79096117723503_2_alg».proof.Proof.Spec
import Idealize.ShloMosaic.Lib.Pipeline.Value
import Idealize.ShloMosaic.Lib.ValueLayout
import Idealize.ShloMosaic.Lib.IdealHost

noncomputable section

namespace Cert.Attn

open Idealize.ShloMosaic Idealize.ShloMosaic.ValueIdx Cert.ReferenceIdeal
open Cert.ReferenceIdeal.Facts₀

/-! ## Broadcasts read at an index -/

section Layout
variable {α : Type}

/-- The queries laid under every head: [2048, 1024] → [1, 2048, 1024] → [16, 2048, 1024] at (h, f, e) is entry (f, e). -/
theorem bcastQ_apply (x : S2048x1024.Idx → α) (h : Fin 16) (f : Fin 2048) (e : Fin 1024) :
    broadcastInDim S16x2048x1024 ![0, 1, 2] bcast_S1x2048x1024_S16x2048x1024_0_1_2
        (broadcastInDim S1x2048x1024 ![1, 2] bcast_S2048x1024_S1x2048x1024_1_2 x) (ix3 h f e) = x (ix2 f e) := by
  refine (broadcastInDim_apply _ _ _ (ix3 h f e) (ix3 (0 : Fin 1) f e) (fun a => ?_)).trans ?_
  · match a with
    | ⟨0, _⟩ => rfl
    | ⟨1, _⟩ => rfl
    | ⟨2, _⟩ => rfl
  · refine broadcastInDim_apply _ _ x _ (ix2 f e) (fun a => ?_)
    match a with
    | ⟨0, _⟩ => rfl
    | ⟨1, _⟩ => rfl

/-- A [16, n] array laid along a new middle axis: [16, n] → [16, 1, n] → [16, 2048, n] at (h, f, e) is entry (h, e). -/
theorem bcastMix_apply (x : S16x1024.Idx → α) (h : Fin 16) (f : Fin 2048) (e : Fin 1024) :
    broadcastInDim S16x2048x1024 ![0, 1, 2] bcast_S16x1x1024_S16x2048x1024_0_1_2
        (broadcastInDim S16x1x1024 ![0, 2] bcast_S16x1024_S16x1x1024_0_2 x) (ix3 h f e) = x (ix2 h e) := by
  refine (broadcastInDim_apply _ _ _ (ix3 h f e) (ix3 h (0 : Fin 1) e) (fun a => ?_)).trans ?_
  · match a with
    | ⟨0, _⟩ => rfl
    | ⟨1, _⟩ => rfl
    | ⟨2, _⟩ => rfl
  · refine broadcastInDim_apply _ _ x _ (ix2 h e) (fun a => ?_)
    match a with
    | ⟨0, _⟩ => rfl
    | ⟨1, _⟩ => rfl

/-- The bias rows laid under every query: [16, 2048] → [16, 1, 2048] → [16, 2048, 2048] at (h, f, u) is entry (h, u). -/
theorem bcastCb_apply (x : S16x2048.Idx → α) (h : Fin 16) (f : Fin 2048) (u : Fin 2048) :
    broadcastInDim S16x2048x2048 ![0, 1, 2] bcast_S16x1x2048_S16x2048x2048_0_1_2
        (broadcastInDim S16x1x2048 ![0, 2] bcast_S16x2048_S16x1x2048_0_2 x) (ix3 h f u) = x (ix2 h u) := by
  refine (broadcastInDim_apply _ _ _ (ix3 h f u) (ix3 h (0 : Fin 1) u) (fun a => ?_)).trans ?_
  · match a with
    | ⟨0, _⟩ => rfl
    | ⟨1, _⟩ => rfl
    | ⟨2, _⟩ => rfl
  · refine broadcastInDim_apply _ _ x _ (ix2 h u) (fun a => ?_)
    match a with
    | ⟨0, _⟩ => rfl
    | ⟨1, _⟩ => rfl

/-- A per-row statistic laid along the row: [16, 2048] → [16, 2048, 1] → [16, 2048, 2048] at (h, f, u) is entry (h, f). -/
theorem bcastRow_apply (x : S16x2048.Idx → α) (h : Fin 16) (f : Fin 2048) (u : Fin 2048) :
    broadcastInDim S16x2048x2048 ![0, 1, 2] bcast_S16x2048x1_S16x2048x2048_0_1_2
        (broadcastInDim S16x2048x1 ![0, 1] bcast_S16x2048_S16x2048x1_0_1 x) (ix3 h f u) = x (ix2 h f) := by
  refine (broadcastInDim_apply _ _ _ (ix3 h f u) (ix3 h f (0 : Fin 1)) (fun a => ?_)).trans ?_
  · match a with
    | ⟨0, _⟩ => rfl
    | ⟨1, _⟩ => rfl
    | ⟨2, _⟩ => rfl
  · refine broadcastInDim_apply _ _ x _ (ix2 h f) (fun a => ?_)
    match a with
    | ⟨0, _⟩ => rfl
    | ⟨1, _⟩ => rfl

/-- The bias transposed: [2048, 16] → [16, 2048] at (h, u) is entry (u, h). -/
theorem transCb_apply (x : S2048x16.Idx → α) (h : Fin 16) (u : Fin 2048) :
    transpose S16x2048 [1, 0] x transposes_S2048x16_S16x2048_1_0 (ix2 h u) = x (ix2 u h) := by
  refine transpose_apply _ x _ (ix2 h u) (ix2 u h) (fun b => ?_)
  match b with
  | ⟨0, _⟩ => rfl
  | ⟨1, _⟩ => rfl

/-- The heads moved inside the rows: [16, 2048, 64] → [2048, 16, 64] at (f, h, d) is entry (h, f, d). -/
theorem transHeads_apply (x : S16x2048x64.Idx → α) (f : Fin 2048) (h : Fin 16) (d : Fin 64) :
    transpose S2048x16x64 [1, 0, 2] x transposes_S16x2048x64_S2048x16x64_1_0_2 (ix3 f h d) = x (ix3 h f d) := by
  refine transpose_apply _ x _ (ix3 f h d) (ix3 h f d) (fun b => ?_)
  match b with
  | ⟨0, _⟩ => rfl
  | ⟨1, _⟩ => rfl
  | ⟨2, _⟩ => rfl

/-- The heads laid side by side: [2048, 16, 64] → [2048, 1024] at (f, c) is entry (f, c / 64, c % 64). -/
theorem castHeads_apply (x : S2048x16x64.Idx → α) (f : Fin 2048) (c : Fin 1024) :
    shapeCast S2048x1024 x shapeCasts_S2048x16x64_S2048x1024 (ix2 f c)
      = x (ix3 f (⟨c.val / 64, by omega⟩ : Fin 16) (⟨c.val % 64, Nat.mod_lt _ (by decide)⟩ : Fin 64)) := by
  refine shapeCast_apply x _ (ix2 f c) _ ?_
  rw [Shape.rowMajor_val_three, Shape.rowMajor_val_two]
  show (f.val * 16 + c.val / 64) * 64 + c.val % 64 = f.val * 1024 + c.val
  omega

end Layout

/-! ## The two contractions read at an index -/

section Dots

/-- The dimension numbers of the scores' contraction: [16, 2048, 1024] with [2048, 1024] over the last axis of each. -/
abbrev dS : DotDims S16x2048x1024 S2048x1024 S16x2048x2048 := dot_S16x2048x1024_S2048x1024_S16x2048x2048_2_1_01_0_n_n
/-- The dimension numbers of the context's contraction: [16, 2048, 2048] with [16, 2048, 64], batched over the heads. -/
abbrev dC : DotDims S16x2048x2048 S16x2048x64 S16x2048x64 := dot_S16x2048x2048_S16x2048x64_S16x2048x64_2_1_1_2_0_0

theorem dS_lhs0 (j : S16x2048x2048.Idx) (q : dS.contr.Idx) : (dS.lhsIdx j q 0).val = (j 0).val := by
  unfold DotDims.lhsIdx
  rw [dif_neg (show ¬(0 : Fin S16x2048x1024.rank) ∈ dS.lhsBatch from List.not_mem_nil),
    dif_pos (show (0 : Fin S16x2048x1024.rank) ∈ dS.lhsNonContracting from by decide)]
  rfl

theorem dS_lhs1 (j : S16x2048x2048.Idx) (q : dS.contr.Idx) : (dS.lhsIdx j q 1).val = (j 1).val := by
  unfold DotDims.lhsIdx
  rw [dif_neg (show ¬(1 : Fin S16x2048x1024.rank) ∈ dS.lhsBatch from List.not_mem_nil),
    dif_pos (show (1 : Fin S16x2048x1024.rank) ∈ dS.lhsNonContracting from by decide)]
  rfl

theorem dS_rhs0 (j : S16x2048x2048.Idx) (q : dS.contr.Idx) : (dS.rhsIdx j q 0).val = (j 2).val := by
  unfold DotDims.rhsIdx
  rw [dif_neg (show ¬(0 : Fin S2048x1024.rank) ∈ dS.rhsBatch from List.not_mem_nil),
    dif_pos (show (0 : Fin S2048x1024.rank) ∈ dS.rhsNonContracting from by decide)]
  rfl

/-- The scores' contraction at (h, f, u): the sum over e of the left operand at (h, f, e) times the right at (u, e). -/
theorem dotScores_apply (a : Arr Ideal S16x2048x1024) (k : Arr Ideal S2048x1024) (h : Fin 16) (f : Fin 2048) (u : Fin 2048) :
    Host.dotGeneral (F := Ideal) (φ₁ := .f32) (φ₂ := .f32) dot_S16x2048x1024_S2048x1024_S16x2048x2048_2_1_01_0_n_n none a k (ix3 h f u)
      = ∑ e : Fin 1024, a (ix3 h f e) * k (ix2 u e) := by
  show FloatOps.dotGeneral (F := Ideal) (φ₁ := .f32) (φ₂ := .f32) dS none .single a k (ix3 h f u) = _
  rw [Ideal.dotGeneral_apply, ← Equiv.sum_comp (contrEquiv1 dS 1024 rfl rfl).symm]
  refine Finset.sum_congr rfl fun e _ => ?_
  have he := contrEquiv1_symm_val dS 1024 rfl rfl e
  have el : dS.lhsIdx (ix3 h f u) ((contrEquiv1 dS 1024 rfl rfl).symm e) = ix3 h f e :=
    funext fun c => Fin.ext (by
      match c with
      | ⟨0, _⟩ => exact dS_lhs0 _ _
      | ⟨1, _⟩ => exact dS_lhs1 _ _
      | ⟨2, _⟩ => exact (dS.lhsIdx_val_of_single rfl _ _).trans he)
  have er : dS.rhsIdx (ix3 h f u) ((contrEquiv1 dS 1024 rfl rfl).symm e) = ix2 u e :=
    funext fun c => Fin.ext (by
      match c with
      | ⟨0, _⟩ => exact dS_rhs0 _ _
      | ⟨1, _⟩ => exact (dS.rhsIdx_val_of_single rfl _ _).trans he)
  exact congrArg₂ (· * ·) (congrArg a el) (congrArg k er)

theorem dC_lhs0 (j : S16x2048x64.Idx) (q : dC.contr.Idx) : (dC.lhsIdx j q 0).val = (j 0).val := by
  unfold DotDims.lhsIdx
  rw [dif_pos (show (0 : Fin S16x2048x2048.rank) ∈ dC.lhsBatch from by decide)]
  rfl

theorem dC_lhs1 (j : S16x2048x64.Idx) (q : dC.contr.Idx) : (dC.lhsIdx j q 1).val = (j 1).val := by
  unfold DotDims.lhsIdx
  rw [dif_neg (show ¬(1 : Fin S16x2048x2048.rank) ∈ dC.lhsBatch from by decide),
    dif_pos (show (1 : Fin S16x2048x2048.rank) ∈ dC.lhsNonContracting from by decide)]
  rfl

theorem dC_rhs0 (j : S16x2048x64.Idx) (q : dC.contr.Idx) : (dC.rhsIdx j q 0).val = (j 0).val := by
  unfold DotDims.rhsIdx
  rw [dif_pos (show (0 : Fin S16x2048x64.rank) ∈ dC.rhsBatch from by decide)]
  rfl

theorem dC_rhs2 (j : S16x2048x64.Idx) (q : dC.contr.Idx) : (dC.rhsIdx j q 2).val = (j 2).val := by
  unfold DotDims.rhsIdx
  rw [dif_neg (show ¬(2 : Fin S16x2048x64.rank) ∈ dC.rhsBatch from by decide),
    dif_pos (show (2 : Fin S16x2048x64.rank) ∈ dC.rhsNonContracting from by decide)]
  rfl

/-- The context's contraction at (h, f, d): the sum over t of the weights at (h, f, t) times the values at (h, t, d). -/
theorem dotCtx_apply (p : Arr Ideal S16x2048x2048) (v : Arr Ideal S16x2048x64) (h : Fin 16) (f : Fin 2048) (d : Fin 64) :
    Host.dotGeneral (F := Ideal) (φ₁ := .f32) (φ₂ := .f32) dot_S16x2048x2048_S16x2048x64_S16x2048x64_2_1_1_2_0_0 none p v (ix3 h f d)
      = ∑ t : Fin 2048, p (ix3 h f t) * v (ix3 h t d) := by
  show FloatOps.dotGeneral (F := Ideal) (φ₁ := .f32) (φ₂ := .f32) dC none .single p v (ix3 h f d) = _
  rw [Ideal.dotGeneral_apply, ← Equiv.sum_comp (contrEquiv1 dC 2048 rfl rfl).symm]
  refine Finset.sum_congr rfl fun t _ => ?_
  have ht := contrEquiv1_symm_val dC 2048 rfl rfl t
  have el : dC.lhsIdx (ix3 h f d) ((contrEquiv1 dC 2048 rfl rfl).symm t) = ix3 h f t :=
    funext fun c => Fin.ext (by
      match c with
      | ⟨0, _⟩ => exact dC_lhs0 _ _
      | ⟨1, _⟩ => exact dC_lhs1 _ _
      | ⟨2, _⟩ => exact (dC.lhsIdx_val_of_single rfl _ _).trans ht)
  have er : dC.rhsIdx (ix3 h f d) ((contrEquiv1 dC 2048 rfl rfl).symm t) = ix3 h t d :=
    funext fun c => Fin.ext (by
      match c with
      | ⟨0, _⟩ => exact dC_rhs0 _ _
      | ⟨1, _⟩ => exact (dC.rhsIdx_val_of_single rfl _ _).trans ht
      | ⟨2, _⟩ => exact dC_rhs2 _ _)
  exact congrArg₂ (· * ·) (congrArg p el) (congrArg v er)

end Dots

/-! ## The row maximum and the row sum read at an index -/

section Reductions

/-- The last axis of [16, 2048, 2048] is the one reduced; the entry over (h, f) at coordinate u is (h, f, u). -/
theorem reducesRow : S16x2048x2048.Reduces [2] S16x2048 := by decide

theorem lift_row (h : Fin 16) (f : Fin 2048) (u : Fin 2048) : reducesRow.lift (ix2 h f) u = ix3 h f u :=
  funext fun c => Fin.ext (by
    match c with
    | ⟨0, _⟩ => rfl
    | ⟨1, _⟩ => rfl
    | ⟨2, _⟩ => rfl)

/-- The reduction by maximum over the last axis from minus infinity, at (h, f): the maximum of the row. -/
theorem reduceMax_apply (s : Arr Ideal S16x2048x2048) (h : Fin 16) (f : Fin 2048) :
    Host.reduce (FloatOps.maximumf (F := Ideal) (φ := .f32)) s (constant (F := Ideal) S_ .f32 0xFF800000#32)
        reducesTo_S16x2048x2048_S16x2048_d2 h_S_ (ix2 h f)
      = rowMax (fun u : Fin 2048 => s (ix3 h f u)) := by
  refine (Host.reduce_eq_fold_single (FloatOps.maximumf (F := Ideal) (φ := .f32)) s _ reducesTo_S16x2048x2048_S16x2048_d2
    reducesRow h_S_ (ix2 h f)).trans ?_
  show (Finset.univ : Finset (Fin 2048)).fold max negInf (fun u => s (reducesRow.lift (ix2 h f) u)) = _
  unfold rowMax
  exact congrArg (fun r : Fin 2048 → EReal => (Finset.univ : Finset (Fin 2048)).fold max negInf r)
    (funext fun u => congrArg s (lift_row h f u))

/-- The reduction by sum over the last axis from zero, at (h, f): the sum of the row. -/
theorem reduceSum_apply (s : Arr Ideal S16x2048x2048) (h : Fin 16) (f : Fin 2048) :
    Host.reduceAdd (F := Ideal) (φ := .f32) s (constant (F := Ideal) S_ .f32 0x00000000#32)
        reducesTo_S16x2048x2048_S16x2048_d2 h_S_ (ix2 h f)
      = ∑ u : Fin 2048, s (ix3 h f u) := by
  show Ideal.hostReduceAdd reducesTo_S16x2048x2048_S16x2048_d2 s (Ideal.ofBits .f32 0x00000000#32) (ix2 h f) = _
  rw [Ideal.hostReduceAdd_single _ reducesRow, Ideal.ofBits_zero_f32, zero_add]
  show ∑ u : Fin 2048, s (reducesRow.lift (ix2 h f) u) = _
  exact Finset.sum_congr rfl fun u _ => congrArg s (lift_row h f u)

/-- Minus infinity is the least extended real, so joining it to a value leaves the value. -/
theorem negInf_eq_bot : negInf = ⊥ := by simp [Ideal.ofBits, Ideal.ieee]

theorem max_negInf (x : EReal) : max negInf x = x := by rw [negInf_eq_bot]; exact max_bot_left x

end Reductions

end Cert.Attn

end
-- ==== Proof.RefMidValue.lean ====
/-
  The reference's attention between the projections and the output projection, read at one entry (f, 64·h + d): the
  scaled, biased scores of query f against every key under head h, their softmax, and the weighted sum of column d of
  the head's values.
-/
import proofs.«128218_j79096117723503_2_alg».proof.Proof.Spec
import proofs.«128218_j79096117723503_2_alg».proof.Proof.RefMidOps
import Idealize.ShloMosaic.Lib.Pipeline.Value
import Idealize.ShloMosaic.Lib.ValueLayout

noncomputable section

namespace Cert.Attn

open Idealize.ShloMosaic Idealize.ShloMosaic.ValueIdx Cert.ReferenceIdeal
open Cert.ReferenceIdeal.Facts₀

/-! ## The three stages: scores, row softmax, weighted sum of the values -/

section Stages
variable {F : FTy → Type} [FloatOps F]

/-- The scaled, biased scores of every query against every key under every head. -/
def rScores (q k : Arr F S2048x1024) (mixing : Arr F S16x1024) (cbRaw : Arr F S2048x16) : Arr F S16x2048x2048 :=
  let v18 : Arr F S1x2048x1024 := broadcastInDim S1x2048x1024 ![1, 2] bcast_S2048x1024_S1x2048x1024_1_2 q
  let v19 : Arr F S16x1x1024 := broadcastInDim S16x1x1024 ![0, 2] bcast_S16x1024_S16x1x1024_0_2 mixing
  let v20 : Arr F S16x2048x1024 := broadcastInDim S16x2048x1024 ![0, 1, 2] bcast_S1x2048x1024_S16x2048x1024_0_1_2 v18
  let v21 : Arr F S16x2048x1024 := broadcastInDim S16x2048x1024 ![0, 1, 2] bcast_S16x1x1024_S16x2048x1024_0_1_2 v19
  let v22 : Arr F S16x2048x1024 := mulf v20 v21
  let v23 : Arr F S16x2048x2048 := Host.dotGeneral dot_S16x2048x1024_S2048x1024_S16x2048x2048_2_1_01_0_n_n none v22 k
  let v25 : Arr F S16x2048 := transpose S16x2048 [1, 0] cbRaw transposes_S2048x16_S16x2048_1_0
  let v26 : Arr F S16x1x2048 := broadcastInDim S16x1x2048 ![0, 2] bcast_S16x2048_S16x1x2048_0_2 v25
  let v27 : Arr F S16x2048x2048 := broadcastInDim S16x2048x2048 ![0, 1, 2] bcast_S16x1x2048_S16x2048x2048_0_1_2 v26
  let v28 : Arr F S16x2048x2048 := addf v23 v27
  let v29 : Arr F S16x2048x2048 := broadcastInDim S16x2048x2048 ![] bcast_S_S16x2048x2048 (constant (F := F) S_ .f32 0x3E000000#32)
  mulf v28 v29

/-- The softmax of every row of an array of scores: the row's maximum subtracted, the exponential, the division by the row's sum. -/
def rSoft (v30 : Arr F S16x2048x2048) : Arr F S16x2048x2048 :=
  let v31 : Arr F S16x2048 := Host.reduce FloatOps.maximumf v30 (constant (F := F) S_ .f32 0xFF800000#32) reducesTo_S16x2048x2048_S16x2048_d2 h_S_
  let v32 : Arr F S16x2048 := broadcastInDim S16x2048 ![] bcast_S_S16x2048 (constant (F := F) S_ .f32 0xFF800000#32)
  let v33 : Arr F S16x2048 := maximumf v32 v31
  let v34 : Arr F S16x2048x1 := broadcastInDim S16x2048x1 ![0, 1] bcast_S16x2048_S16x2048x1_0_1 v33
  let v35 : Arr F S16x2048x2048 := broadcastInDim S16x2048x2048 ![0, 1, 2] bcast_S16x2048x1_S16x2048x2048_0_1_2 v34
  let v36 : Arr F S16x2048x2048 := subf v30 v35
  let v37 : Arr F S16x2048x2048 := Host.exp v36
  let v38 : Arr F S16x2048 := Host.reduceAdd v37 (constant (F := F) S_ .f32 0x00000000#32) reducesTo_S16x2048x2048_S16x2048_d2 h_S_
  let v39 : Arr F S16x2048x1 := broadcastInDim S16x2048x1 ![0, 1] bcast_S16x2048_S16x2048x1_0_1 v38
  let v40 : Arr F S16x2048x2048 := broadcastInDim S16x2048x2048 ![0, 1, 2] bcast_S16x2048x1_S16x2048x2048_0_1_2 v39
  Host.divf v37 v40

/-- The weights against the heads' values, the heads then laid side by side along the columns. -/
def rCtx (v41 : Arr F S16x2048x2048) (vh : Arr F S16x2048x64) : Arr F S2048x1024 :=
  let v48 : Arr F S16x2048x64 := Host.dotGeneral dot_S16x2048x2048_S16x2048x64_S16x2048x64_2_1_1_2_0_0 none v41 vh
  let v49 : Arr F S2048x16x64 := transpose S2048x16x64 [1, 0, 2] v48 transposes_S16x2048x64_S2048x16x64_1_0_2
  shapeCast S2048x1024 v49 shapeCasts_S2048x16x64_S2048x1024

/-- The reference's attention is the composition of the three stages. -/
theorem refMid_eq (q k : Arr F S2048x1024) (mixing : Arr F S16x1024) (cbRaw : Arr F S2048x16) (vh : Arr F S16x2048x64) :
    refMid q k mixing cbRaw vh = rCtx (rSoft (rScores q k mixing cbRaw)) vh := rfl

end Stages

/-- The scores at (h, f, u): the query f mixed for head h against key u, plus the bias of key u under head h, times ⅛. -/
theorem rScores_apply (q k : Arr Ideal S2048x1024) (mixing : Arr Ideal S16x1024) (cbRaw : Arr Ideal S2048x16)
    (h : Fin 16) (f : Fin 2048) (u : Fin 2048) :
    rScores q k mixing cbRaw (ix3 h f u)
      = ((∑ e : Fin 1024, (q (ix2 f e) * mixing (ix2 h e)) * k (ix2 u e)) + cbRaw (ix2 u h)) * eighth := by
  unfold rScores
  refine (mulf_apply _ _ (ix3 h f u)).trans ?_
  rw [addf_apply, dotScores_apply, bcastCb_apply, transCb_apply, broadcastInDim_scalar_apply]
  refine congrArg₂ (· * ·) (congrArg₂ (· + ·) (Finset.sum_congr rfl fun e _ => ?_) rfl) rfl
  rw [mulf_apply, bcastQ_apply, bcastMix_apply]

/-- The exponential of a shifted array at an index. -/
theorem expShift_apply (s m : Arr Ideal S16x2048x2048) (j : S16x2048x2048.Idx) :
    Host.exp (F := Ideal) (φ := .f32) (subf s m) j = Ideal.exp (s j - m j) := rfl

/-- The row maximum, joined once more with minus infinity and laid along the row, at (h, f, u): the maximum of row (h, f). -/
theorem rowShift_apply (s : Arr Ideal S16x2048x2048) (h : Fin 16) (f : Fin 2048) (u : Fin 2048) :
    broadcastInDim S16x2048x2048 ![0, 1, 2] bcast_S16x2048x1_S16x2048x2048_0_1_2
        (broadcastInDim S16x2048x1 ![0, 1] bcast_S16x2048_S16x2048x1_0_1
          (maximumf (broadcastInDim S16x2048 ![] bcast_S_S16x2048 (constant (F := Ideal) S_ .f32 0xFF800000#32))
            (Host.reduce (FloatOps.maximumf (F := Ideal) (φ := .f32)) s (constant (F := Ideal) S_ .f32 0xFF800000#32)
              reducesTo_S16x2048x2048_S16x2048_d2 h_S_))) (ix3 h f u)
      = rowMax (fun u : Fin 2048 => s (ix3 h f u)) := by
  rw [bcastRow_apply, maximumf_apply, broadcastInDim_scalar_apply, reduceMax_apply]
  exact max_negInf _

/-- The softmax stage at (h, f, t): the softmax weight of column t of row (h, f). -/
theorem rSoft_apply (s : Arr Ideal S16x2048x2048) (h : Fin 16) (f : Fin 2048) (t : Fin 2048) :
    rSoft s (ix3 h f t) = softmaxRow (fun u : Fin 2048 => s (ix3 h f u)) t := by
  unfold rSoft softmaxRow
  refine (hostDivf_apply _ _ (ix3 h f t)).trans ?_
  rw [bcastRow_apply, reduceSum_apply]
  refine congrArg₂ Ideal.div ?_ (Finset.sum_congr rfl fun u _ => ?_)
  · refine (expShift_apply _ _ _).trans ?_
    rw [rowShift_apply]
  · refine (expShift_apply _ _ _).trans ?_
    rw [rowShift_apply]

/-- The last stage at (f, c): the weights of row (c / 64, f) against column c % 64 of that head's values. -/
theorem rCtx_apply (p : Arr Ideal S16x2048x2048) (vh : Arr Ideal S16x2048x64) (f : Fin 2048) (c : Fin 1024) :
    rCtx p vh (ix2 f c)
      = ∑ t : Fin 2048, p (ix3 (⟨c.val / 64, by omega⟩ : Fin 16) f t)
          * vh (ix3 (⟨c.val / 64, by omega⟩ : Fin 16) t (⟨c.val % 64, Nat.mod_lt _ (by decide)⟩ : Fin 64)) := by
  unfold rCtx
  show shapeCast S2048x1024 _ shapeCasts_S2048x16x64_S2048x1024 (ix2 f c) = _
  rw [castHeads_apply, transHeads_apply, dotCtx_apply]

theorem refMid_apply (q k : Arr Ideal S2048x1024) (mixing : Arr Ideal S16x1024) (cbRaw : Arr Ideal S2048x16) (vh : Arr Ideal S16x2048x64)
    (i : S2048x1024.Idx) :
    refMid (F := Ideal) q k mixing cbRaw vh i = scaledMid q k mixing cbRaw vh i := by
  obtain ⟨f, c, rfl⟩ : ∃ (f : Fin 2048) (c : Fin 1024), i = ix2 f c := ⟨i 0, i 1, eq_ix2 i⟩
  rw [refMid_eq, rCtx_apply]
  unfold scaledMid attnAt
  refine Finset.sum_congr rfl fun t _ => ?_
  rw [rSoft_apply]
  refine congrArg₂ (· * ·) ?_ rfl
  refine congrArg (fun row : Fin 2048 → EReal => softmaxRow row t) (funext fun u => ?_)
  exact rScores_apply q k mixing cbRaw _ f u

end Cert.Attn

end
-- ==== Proof.LibEdgeSum.lean ====
/-
  Sums of extended reals over a finite set of edges, scaled by a degree factor.

  A graph convolution with symmetric normalisation sums, over the edges `e` that end at a node `d`, a message
  `a e` scaled by `s e * c`, where `c` is the factor of `d` itself. The factor of the end node is the same for
  every edge of the sum, so it may be taken out of the sum — provided multiplication by it distributes over a
  sum of EXTENDED reals, which it does when `0 ≤ c` and `c ≠ ⊤`. The factor is `1 / √(number of edges ending at d)`:
  a positive real when some edge ends at `d`, and `⊤` exactly when none does — and then the sum is empty and both
  sides are zero. So the two forms agree for every family of extended reals, with no finiteness asked of the messages.
-/
import Idealize.ShloMosaic.PureOps.Ideal

noncomputable section

namespace Cert.Lib.EdgeSum

open Idealize.ShloMosaic

/-- The word of `+0.0` denotes `0`. -/
theorem ofBits_zero : Ideal.ofBits .f32 0x00000000#32 = 0 := by
  simp [Ideal.ofBits, Ideal.ieee]

/-- The word of `1.0` denotes `1`. -/
theorem ofBits_one : Ideal.ofBits .f32 0x3F800000#32 = 1 := by
  simp [Ideal.ofBits, Ideal.ieee, -EReal.coe_mul]; norm_num

/-- A nonnegative extended real other than `⊤` scales a finite sum of extended reals term by term. -/
theorem sum_mul_of_nonneg_of_ne_top {ι : Type} (S : Finset ι) (t : ι → EReal) {c : EReal} (h0 : 0 ≤ c) (ht : c ≠ ⊤) :
    (∑ e ∈ S, t e) * c = ∑ e ∈ S, t e * c := by
  classical
  induction S using Finset.induction_on with
  | empty => simp
  | insert a S ha ih =>
    rw [Finset.sum_insert ha, Finset.sum_insert ha, EReal.right_distrib_of_nonneg_of_ne_top h0 ht, ih]

/-- A sum of ones over a finite set is its number of elements. -/
theorem sum_ones {ι : Type} (S : Finset ι) : ∑ _e ∈ S, (1 : EReal) = ((S.card : ℝ) : EReal) := by
  classical
  induction S using Finset.induction_on with
  | empty => simp
  | insert a S ha ih =>
    rw [Finset.sum_insert ha, ih, Finset.card_insert_of_notMem ha, Nat.cast_succ, EReal.coe_add, EReal.coe_one, add_comm]

/-- The degree factor of a node: the reciprocal square root of the number of edges in `S`, counted as a sum of ones
    onto zero. Either `S` is empty, or the factor is a nonnegative extended real other than `⊤`. -/
theorem rsqrt_count {ι : Type} (S : Finset ι) :
    S = ∅ ∨ (0 ≤ Ideal.rsqrt ((0 : EReal) + ∑ _e ∈ S, (1 : EReal)) ∧ Ideal.rsqrt ((0 : EReal) + ∑ _e ∈ S, (1 : EReal)) ≠ ⊤) := by
  rcases S.eq_empty_or_nonempty with h | h
  · exact Or.inl h
  · right
    have hs : (0 : EReal) + ∑ _e ∈ S, (1 : EReal) = ((S.card : ℝ) : EReal) := by
      rw [zero_add]; exact sum_ones S
    have hpos : (0 : ℝ) < S.card := by exact_mod_cast h.card_pos
    rw [hs, Ideal.rsqrt_coe, if_neg (not_lt.mpr hpos.le), if_neg hpos.ne']
    exact ⟨by exact_mod_cast (inv_nonneg.mpr (Real.sqrt_nonneg _)), EReal.coe_ne_top _⟩

/-- A factor that is nonnegative and not `⊤` may be moved from behind a sum of pre-scaled messages into each term. -/
theorem scaled_sum_of {ι : Type} (S : Finset ι) (a s : ι → EReal) {c : EReal} (h0 : 0 ≤ c) (ht : c ≠ ⊤) :
    ((0 : EReal) + ∑ e ∈ S, a e * s e) * c = (0 : EReal) + ∑ e ∈ S, a e * (s e * c) := by
  rw [zero_add, zero_add, sum_mul_of_nonneg_of_ne_top S _ h0 ht]
  exact Finset.sum_congr rfl fun e _ => mul_assoc _ _ _

/-- THE LAW OF THE NORMALISED AGGREGATION. Over the edges `S` that end at one node, whose degree factor is `c` (the
    reciprocal square root of their number): the sum of the pre-scaled messages `a e * s e`, scaled by `c` afterwards, is
    the sum of the messages each scaled by `s e * c`. -/
theorem scaled_sum {ι : Type} (S : Finset ι) (a s : ι → EReal) :
    ((0 : EReal) + ∑ e ∈ S, a e * s e) * Ideal.rsqrt ((0 : EReal) + ∑ _e ∈ S, (1 : EReal))
      = (0 : EReal) + ∑ e ∈ S, a e * (s e * Ideal.rsqrt ((0 : EReal) + ∑ _e ∈ S, (1 : EReal))) := by
  rcases rsqrt_count S with h | ⟨h0, ht⟩
  · subst h; simp
  · exact scaled_sum_of S a s h0 ht

end Cert.Lib.EdgeSum

end
-- ==== Proof.Bridge.lean ====
/-
  The two attentions are one function.

  With ε = 1/8: folding ε into the mixing rows and into the bias rows before the scores are formed gives, for every
  query f, head h and key u,
      ∑ e, (q (f, e) · (mixing (h, e) · ε)) · k (u, e) + cb (u, h) · ε  =  (∑ e, (q (f, e) · mixing (h, e)) · k (u, e) + cb (u, h)) · ε :
  multiplication on the extended reals is commutative and associative, and multiplication by a factor that is
  nonnegative and not ⊤ distributes over a sum, whatever the summands (infinite ones included). So the rows of
  scores agree, hence their softmax weights and the weighted sums of the values; the change of format of the keys and
  the values is the identity. No finiteness of the inputs is used.
-/
import proofs.«128218_j79096117723503_2_alg».proof.Proof.KTerms
import proofs.«128218_j79096117723503_2_alg».proof.Proof.RefMidValue
import proofs.«128218_j79096117723503_2_alg».proof.Proof.LibEdgeSum
import Idealize.ShloMosaic.Lib.ValueLayout

noncomputable section

namespace Cert.Attn

open Idealize.ShloMosaic Idealize.ShloMosaic.ValueIdx Cert.ReferenceIdeal

/-- The scale is the real number 1/8. -/
theorem eighth_eq : eighth = ((0.125 : ℝ) : EReal) := by
  simp [eighth, Ideal.ofBits, Ideal.ieee, -EReal.coe_mul]; norm_num

theorem eighth_nonneg : 0 ≤ eighth := by
  rw [eighth_eq]; exact_mod_cast (by norm_num : (0 : ℝ) ≤ 0.125)

theorem eighth_ne_top : eighth ≠ ⊤ := by
  rw [eighth_eq]; exact EReal.coe_ne_top _

/-- The scaled mixing rows at an entry. -/
theorem mixS_apply (mixing : Arr Ideal S16x1024) (h : Fin 16) (e : Fin 1024) :
    K.mixS mixing (ix2 h e) = mixing (ix2 h e) * eighth := rfl

/-- The scaled bias rows at an entry: the projection's entry (u, h), transposed, times the scale. -/
theorem cbS_apply (cbRaw : Arr Ideal S2048x16) (h : Fin 16) (u : Fin 2048) :
    K.cbS cbRaw (ix2 h u) = cbRaw (ix2 u h) * eighth := by
  unfold K.cbS
  show (transpose _ _ cbRaw _ (ix2 h u)) * _ = _
  rw [transpose_ix2_apply]
  rfl

/-- THE LAW: one row of scores with the scale folded into its operands is the scaled row. -/
theorem score_eq (qr kr mr : Fin 1024 → EReal) (cb : EReal) :
    (∑ e : Fin 1024, (qr e * (mr e * eighth)) * kr e) + cb * eighth
      = ((∑ e : Fin 1024, (qr e * mr e) * kr e) + cb) * eighth := by
  rw [EReal.right_distrib_of_nonneg_of_ne_top eighth_nonneg eighth_ne_top,
    Cert.Lib.EdgeSum.sum_mul_of_nonneg_of_ne_top _ _ eighth_nonneg eighth_ne_top]
  refine congrArg (· + cb * eighth) (Finset.sum_congr rfl fun e _ => ?_)
  rw [← mul_assoc, mul_right_comm]

/-- The attention with the folded scale, of the operands as the kernel's program prepares them, is the reference's
    attention of the unprepared operands. -/
theorem bridge (q k : Arr Ideal S2048x1024) (mixing : Arr Ideal S16x1024) (cbRaw : Arr Ideal S2048x16) (vh : Arr Ideal S16x2048x64) :
    foldedMid q (K.toBf16 k) (K.mixS mixing) (K.cbS cbRaw) (K.toBf16 vh) = refMid (F := Ideal) q k mixing cbRaw vh := by
  funext i
  rw [refMid_apply]
  unfold foldedMid scaledMid
  refine congrArg₂ attnAt (funext fun u => ?_) rfl
  rw [cbS_apply]
  refine Eq.trans ?_ (score_eq (fun e => q (ix2 (rowOf i) e)) (fun e => k (ix2 u e)) (fun e => mixing (ix2 (headOf i) e)) (cbRaw (ix2 u (headOf i))))
  refine congrArg (· + cbRaw (ix2 u (headOf i)) * eighth) (Finset.sum_congr rfl fun e _ => ?_)
  rw [mixS_apply]
  rfl

/-- So the two programs' results are one function of the thirteen arguments. -/
theorem out_eq (hs : Arr Ideal S512x1024) (fpos tpos : IArr Ideal S2048) (wq wk : Arr Ideal S1024x1024) (wcb : Arr Ideal S1024x16)
    (wv : Arr Ideal S1024x1024) (bv : Arr Ideal S1024) (mixing : Arr Ideal S16x1024) (wd : Arr Ideal S1024x1024) (bd gamma beta : Arr Ideal S1024) :
    K.kernOut hs fpos tpos wq wk wcb wv bv mixing wd bd gamma beta
      = refOut (F := Ideal) hs fpos tpos wq wk wcb wv bv mixing wd bd gamma beta := by
  unfold K.kernOut refOut
  rw [bridge]

end Cert.Attn

end
-- ==== Proof.lean ====
/-
  The certificate of the collaborative-attention layer: the kernel's program against its jnp reference, on the
  extended reals.

  Both programs gather the query and key rows of the hidden states, project them, and finish with the same output
  projection, residual and layer normalisation. Between the two, the reference forms for every head h the scores
  (q ⊙ mixing_h) kᵀ + cb_h, scales them by 1/8, and takes the row softmax against the head's values; the kernel's program
  scales mixing and cb by 1/8 beforehand and runs the same per-head chain inside one Pallas region over four blocks
  of 512 query rows, the sixteen heads' results laid side by side. Scaling by 1/8 — nonnegative and finite —
  distributes over the scores' sum on the extended reals, so the two rows of scores are equal (`Cert.Attn.score_eq`),
  and everything after them is the same function of them (`Cert.Attn.bridge`, `Cert.Attn.out_eq`). The three
  frames are the generated frame runs (the reference's: its run read back by hand, the result dropped); the ideal pass
  rewrote nothing, so the idealisation is preserved trivially.
-/
import proofs.«128218_j79096117723503_2_alg».proof.Defs
import proofs.«128218_j79096117723503_2_alg».proof.Proof.Gen.Kernel
import proofs.«128218_j79096117723503_2_alg».proof.Proof.Gen.Kernel.Frame
import proofs.«128218_j79096117723503_2_alg».proof.Proof.Gen.KernelIdeal
import proofs.«128218_j79096117723503_2_alg».proof.Proof.Gen.KernelIdeal.Frame
import proofs.«128218_j79096117723503_2_alg».proof.Proof.Gen.ReferenceIdeal
import proofs.«128218_j79096117723503_2_alg».proof.Proof.Gen.Pre_finite_inputs
import proofs.«128218_j79096117723503_2_alg».proof.Proof.KernelRun
import proofs.«128218_j79096117723503_2_alg».proof.Proof.RefRun
import proofs.«128218_j79096117723503_2_alg».proof.Proof.Bridge
import Idealize.ShloMosaic.Adequacy
import Idealize.ShloMosaic.Init

noncomputable section

namespace Cert.Proof

open Idealize.ShloMosaic Idealize.SL.Sem

/-- The word-level kernel program runs, faults nowhere and leaves its arguments unchanged: the generated frame. -/
theorem frame_k : Cert.frame_Kernel := fun m ρ _ => Cert.Kernel.Gen.frame m ρ

/-- The same of the idealised kernel program. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The ideal pass rewrote no operation. -/
theorem preserves : Cert.preserves_Kernel_KernelIdeal := trivial

/-- From memories agreeing on the thirteen arguments both programs end with one and the same array: the kernel's at
    `kernOut` of its arguments, the reference's at `refOut` of its own, equal arguments, and the two are one function. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3, e4, e5, e6, e7, e8, e9, e10, e11, e12⟩ := hagree c
  rw [e0, e1, e2, e3, e4, e5, e6, e7, e8, e9, e10, e11, e12]
  exact (Cert.Attn.out_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
